-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S256x512 : Shape := ⟨2, ![256, 512]⟩
abbrev S_ : Shape := ⟨0, ![]⟩
abbrev S4x512 : Shape := ⟨2, ![4, 512]⟩
abbrev S256x4 : Shape := ⟨2, ![256, 4]⟩
abbrev S256 : Shape := ⟨1, ![256]⟩
abbrev S1x256 : Shape := ⟨2, ![1, 256]⟩
abbrev S1 : Shape := ⟨1, ![1]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  reducesTo_S_S_d : S_.ReducesTo [] S_
  bcast_S_S4x512 : S_.BroadcastsInDim S4x512 (![] : Fin 0 → Fin S4x512.rank)
  reducesTo_S4x512_S_d0_1 : S4x512.ReducesTo [0, 1] S_
  bcast_S_S256x4 : S_.BroadcastsInDim S256x4 (![] : Fin 0 → Fin S256x4.rank)
  reducesTo_S256x4_S_d0_1 : S256x4.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v47 : IVec S_ 1) (main_v50 : IVec S1x256 1) : IVec S_ 1 :=
  let main_c_19 : IVec S_ 1 := constantI S_ 1 1#1
  let main_v51 : IVec S_ 1 := (fun x v => Host.reduce IntOp.andi x v reducesTo_S1x256_S_d0_1 h_S_) main_v50 main_c_19
  let main_v52 : IVec S_ 1 := andi main_v47 main_v51
  let main_v53 : FVec F S1 .f32 := Host.absf main_arg11
  let main_cst_20 : FVec F S_ .f32 := constant S_ .f32 0x7F800000#32
  let main_v54 : FVec F S1 .f32 := broadcastInDim S1 ![] bcast_S_S1 main_cst_20
  let main_v55 : IVec S1 1 := cmpf .olt main_v53 main_v54
  let main_c_21 : IVec S_ 1 := constantI S_ 1 1#1
  let main_v56 : IVec S_ 1 := (fun x v => Host.reduce IntOp.andi x v reducesTo_S1_S_d0 h_S_) main_v55 main_c_21
  let main_v57 : IVec S_ 1 := andi main_v52 main_v56
  main_v57

def fn_part2 {F : FTy → Type} [FloatOps F] (main_arg8 : FVec F S256x4 .f32) (main_arg9 : FVec F S256 .f32) (main_arg10 : FVec F S1x256 .f32) (main_arg11 : FVec F S1 .f32) (main_v32 : IVec S_ 1) (main_v33 : FVec F S256x4 .f32) : IVec S_ 1 :=
  let main_cst_12 : FVec F S_ .f32 := constant S_ .f32 0x7F800000#32
  let main_v34 : FVec F S256x4 .f32 := broadcastInDim S256x4 ![] bcast_S_S256x4 main_cst_12
  let main_v35 : IVec S256x4 1 := cmpf .olt main_v33 main_v34
  let main_c_13 : IVec S_ 1 := constantI S_ 1 1#1
  let main_v36 : IVec S_ 1 := (fun x v => Host.reduce IntOp.andi x v reducesTo_S256x4_S_d0_1 h_S_) main_v35 main_c_13
  let main_v37 : IVec S_ 1 := andi main_v32 main_v36
  let main_v38 : FVec F S256x4 .f32 := Host.absf main_arg8
  let main_cst_14 : FVec F S_ .f32 := constant S_ .f32 0x7F800000#32
  let main_v39 : FVec F S256x4 .f32 := broadcastInDim S256x4 ![] bcast_S_S256x4 main_cst_14
  let main_v40 : IVec S256x4 1 := cmpf .olt main_v38 main_v39
  let main_c_15 : IVec S_ 1 := constantI S_ 1 1#1
  let main_v41 : IVec S_ 1 := (fun x v => Host.reduce IntOp.andi x v reducesTo_S256x4_S_d0_1 h_S_) main_v40 main_c_15
  let main_v42 : IVec S_ 1 := andi main_v37 main_v41
  let main_v43 : FVec F S256 .f32 := Host.absf main_arg9
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S1x256 .f32 := Host.absf main_arg10
  let main_cst_18 : FVec F S_ .f32 := constant S_ .f32 0x7F800000#32
  let main_v49 : FVec F S1x256 .f32 := broadcastInDim S1x256 ![] bcast_S_S1x256 main_cst_18
  let main_v50 : IVec S1x256 1 := cmpf .olt main_v48 main_v49
  fn_part3 (F := F) main_arg11 main_v47 main_v50

def fn_part1 {F : FTy → Type} [FloatOps F] (main_arg4 : FVec F S256x512 .f32) (main_arg5 : FVec F S_ .f32) (main_arg6 : FVec F S4x512 .f32) (main_arg7 : FVec F S256x4 .f32) (main_arg8 : FVec F S256x4 .f32) (main_arg9 : FVec F S256 .f32) (main_arg10 : FVec F S1x256 .f32) (main_arg11 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S4x512 .f32 := Host.absf main_arg6
  let main_cst_10 : FVec F S_ .f32 := constant S_ .f32 0x7F800000#32
  let main_v29 : FVec F S4x512 .f32 := broadcastInDim S4x512 ![] bcast_S_S4x512 main_cst_10
  let main_v30 : IVec S4x512 1 := cmpf .olt main_v28 main_v29
  let main_c_11 : IVec S_ 1 := constantI S_ 1 1#1
  let main_v31 : IVec S_ 1 := (fun x v => Host.reduce IntOp.andi x v reducesTo_S4x512_S_d0_1 h_S_) main_v30 main_c_11
  let main_v32 : IVec S_ 1 := andi main_v27 main_v31
  let main_v33 : FVec F S256x4 .f32 := Host.absf main_arg7
  fn_part2 (F := F) main_arg8 main_arg9 main_arg10 main_arg11 main_v32 main_v33

def fn {F : FTy → Type} [FloatOps F] (main_arg0 : FVec F S1024x512 .f32) (main_arg1 : FVec F S256x512 .f32) (main_arg2 : FVec F S256x512 .f32) (main_arg3 : FVec F S256x512 .f32) (main_arg4 : FVec F S256x512 .f32) (main_arg5 : FVec F S_ .f32) (main_arg6 : FVec F S4x512 .f32) (main_arg7 : FVec F S256x4 .f32) (main_arg8 : FVec F S256x4 .f32) (main_arg9 : FVec F S256 .f32) (main_arg10 : FVec F S1x256 .f32) (main_arg11 : FVec F S1 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_arg10 main_arg11 main_v13 main_v16
-- ==== Kernel.lean ====
abbrev S1024x512 : Shape := ⟨2, ![1024, 512]⟩
abbrev S256x512 : Shape := ⟨2, ![256, 512]⟩
abbrev S_ : Shape := ⟨0, ![]⟩
abbrev S4x512 : Shape := ⟨2, ![4, 512]⟩
abbrev S256x4 : Shape := ⟨2, ![256, 4]⟩
abbrev S256 : Shape := ⟨1, ![256]⟩
abbrev S1x256 : Shape := ⟨2, ![1, 256]⟩
abbrev S1 : Shape := ⟨1, ![1]⟩
abbrev S1x1 : Shape := ⟨2, ![1, 1]⟩
abbrev S512 : Shape := ⟨1, ![512]⟩
abbrev S1x512 : Shape := ⟨2, ![1, 512]⟩
abbrev S512x4 : Shape := ⟨2, ![512, 4]⟩
abbrev S256x1 : Shape := ⟨2, ![256, 1]⟩
abbrev S1024x1 : Shape := ⟨2, ![1024, 1]⟩
abbrev S32x512 : Shape := ⟨2, ![32, 512]⟩
abbrev S128x512 : Shape := ⟨2, ![128, 512]⟩
abbrev S128x4 : Shape := ⟨2, ![128, 4]⟩
abbrev S128x1 : Shape := ⟨2, ![128, 1]⟩
abbrev S1x128 : Shape := ⟨2, ![1, 128]⟩
abbrev S32x1 : Shape := ⟨2, ![32, 1]⟩
abbrev S32x1x512 : Shape := ⟨3, ![32, 1, 512]⟩
abbrev S1x128x512 : Shape := ⟨3, ![1, 128, 512]⟩
abbrev S32x128x512 : Shape := ⟨3, ![32, 128, 512]⟩
abbrev S4096x512 : Shape := ⟨2, ![4096, 512]⟩
abbrev S4096x4 : Shape := ⟨2, ![4096, 4]⟩
abbrev S32x128x4 : Shape := ⟨3, ![32, 128, 4]⟩
abbrev S1x128x4 : Shape := ⟨3, ![1, 128, 4]⟩
abbrev S32x128 : Shape := ⟨2, ![32, 128]⟩
abbrev S128 : Shape := ⟨1, ![128]⟩
abbrev S32 : Shape := ⟨1, ![32]⟩
abbrev S1024 : Shape := ⟨1, ![1024]⟩

abbrev nBuf : Space → Nat
  | .hbm => 39
  | .vmem => 24
  | .smem => 0
  | _ => 0

abbrev bufTy : (tb : Table) → Fin (tcTables nBuf tb) → BufTy
  | .hbm, ⟨0, _⟩ => ⟨S1024x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S_, .f32⟩
  | .hbm, ⟨6, _⟩ => ⟨S4x512, .f32⟩
  | .hbm, ⟨7, _⟩ => ⟨S256x4, .f32⟩
  | .hbm, ⟨8, _⟩ => ⟨S256x4, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S4x512, .f32⟩
  | .hbm, ⟨27, _⟩ => ⟨S4x512, .f32⟩
  | .hbm, ⟨28, _⟩ => ⟨S4x512, .f32⟩
  | .hbm, ⟨29, _⟩ => ⟨S_, .f32⟩
  | .hbm, ⟨30, _⟩ => ⟨S512, .f32⟩
  | .hbm, ⟨31, _⟩ => ⟨S1x512, .f32⟩
  | .hbm, ⟨32, _⟩ => ⟨S4x512, .f32⟩
  | .hbm, ⟨33, _⟩ => ⟨S4x512, .f32⟩
  | .hbm, ⟨34, _⟩ => ⟨S512x4, .f32⟩
  | .hbm, ⟨35, _⟩ => ⟨S256x1, .f32⟩
  | .hbm, ⟨36, _⟩ => ⟨S1x1, .f32⟩
  | .hbm, ⟨37, _⟩ => ⟨S1024x1, .f32⟩
  | .hbm, ⟨38, _⟩ => ⟨S1024, .f32⟩
  | .local _ .vmem, ⟨0, _⟩ => ⟨S32x512, .f32⟩
  | .local _ .vmem, ⟨1, _⟩ => ⟨S32x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S512x4, .f32⟩
  | .local _ .vmem, ⟨11, _⟩ => ⟨S128x4, .f32⟩
  | .local _ .vmem, ⟨12, _⟩ => ⟨S128x4, .f32⟩
  | .local _ .vmem, ⟨13, _⟩ => ⟨S128x4, .f32⟩
  | .local _ .vmem, ⟨14, _⟩ => ⟨S128x4, .f32⟩
  | .local _ .vmem, ⟨15, _⟩ => ⟨S128x1, .f32⟩
  | .local _ .vmem, ⟨16, _⟩ => ⟨S128x1, .f32⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S1x1, .f32⟩
  | .local _ .vmem, ⟨21, _⟩ => ⟨S32x1, .f32⟩
  | .local _ .vmem, ⟨22, _⟩ => ⟨S32x1, .f32⟩
  | .local _ .vmem, ⟨23, _⟩ => ⟨S32x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v1 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_cst_2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v76 : BitVec 1 := Scalar.cmpi .eq arg1 c1_i32
  let v77 : BitVec 32 := Scalar.extui v76
  let c0_i32_34 : BitVec 32 := 0#32
  let v78 : BitVec 1 := Scalar.cmpi .ne v77 c0_i32_34
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S32x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  shapeCasts_S_S1x1 : S_.ShapeCasts S1x1
  reducesTo_S4x512_S512_d0 : S4x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  transposes_S4x512_S512x4_1_0 : S4x512.Transposes [1, 0] S512x4
  shapeCasts_S256_S256x1 : S256.ShapeCasts S256x1
  shapeCasts_S1_S1x1 : S1.ShapeCasts S1x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x512_S32x512_0_0 : ∀ a, (![0, 0] : Fin 2 → Nat) a + S32x512.size a ≤ S32x512.size a
  h_S32x512 : 0 < S32x512.numel
  inb_S128x512_S128x512_0_0 : ∀ a, (![0, 0] : Fin 2 → Nat) a + S128x512.size a ≤ S128x512.size a
  h_S128x512 : 0 < S128x512.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  inb_S512x4_S512x4_0_0 : ∀ a, (![0, 0] : Fin 2 → Nat) a + S512x4.size a ≤ S512x4.size a
  h_S512x4 : 0 < S512x4.numel
  shapeCasts_S512x4_S512x4 : S512x4.ShapeCasts S512x4
  shapeCasts_S32x128x512_S4096x512 : S32x128x512.ShapeCasts S4096x512
  bitsLt_bf16_f32 : FTy.bits .bf16 < FTy.bits .f32
  shapeCasts_S4096x4_S32x128x4 : S4096x4.ShapeCasts S32x128x4
  inb_S128x4_S128x4_0_0 : ∀ a, (![0, 0] : Fin 2 → Nat) a + S128x4.size a ≤ S128x4.size a
  h_S128x4 : 0 < S128x4.numel
  shapeCasts_S128x4_S1x128x4 : S128x4.ShapeCasts S1x128x4
  broadcasts_S1x128x4_S32x128x4 : S1x128x4.Broadcasts S32x128x4
  reduces_S32x128x4_S32x128 : S32x128x4.Reduces [2] S32x128
  reduces_S128x4_S128 : S128x4.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  transposes_S128x1_p1_0_S1x128 : S128x1.Transposes [1, 0] S1x128
  broadcasts_S1x128_S32x128 : S1x128.Broadcasts S32x128
  inb_S1x128_S1x128_0_0 : ∀ a, (![0, 0] : Fin 2 → Nat) a + S1x128.size a ≤ S1x128.size a
  h_S1x128 : 0 < S1x128.numel
  reduces_S32x128_S32 : S32x128.Reduces [1] S32
  shapeCasts_S32_S32x1 : S32.ShapeCasts S32x1
  shapeCasts_S1024x1_S1024 : S1024x1.ShapeCasts S1024
  dot_S4096x512_S512x4_S4096x4_1_0_0_1_n_n_wf : DotDims.WF S4096x512 S512x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S1024x512.size a
  hwx0_0 : ∀ i : grid0.Coords, EltTy.bits .f32 = 32 ∨ (Rect.block (s := S1024x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S256x512.size a
  hwx0_1 : ∀ i : grid0.Coords, EltTy.bits .f32 = 32 ∨ (Rect.block (s := S256x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S256x512.size a
  hwx0_2 : ∀ i : grid0.Coords, EltTy.bits .f32 = 32 ∨ (Rect.block (s := S256x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S256x512.size a
  hwx0_3 : ∀ i : grid0.Coords, EltTy.bits .f32 = 32 ∨ (Rect.block (s := S256x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S256x512.size a
  hwx0_4 : ∀ i : grid0.Coords, EltTy.bits .f32 = 32 ∨ (Rect.block (s := S256x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S512x4.size a
  hwx0_5 : ∀ i : grid0.Coords, EltTy.bits .f32 = 32 ∨ (Rect.block (s := S512x4) S512x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4.size a ≤ S256x4.size a
  hwx0_6 : ∀ i : grid0.Coords, EltTy.bits .f32 = 32 ∨ (Rect.block (s := S256x4) S128x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4.size a ≤ S256x4.size a
  hwx0_7 : ∀ i : grid0.Coords, EltTy.bits .f32 = 32 ∨ (Rect.block (s := S256x4) S128x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S256x1.size a
  hwx0_8 : ∀ i : grid0.Coords, EltTy.bits .f32 = 32 ∨ (Rect.block (s := S256x1) S128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x256.size a
  hwx0_9 : ∀ i : grid0.Coords, EltTy.bits .f32 = 32 ∨ (Rect.block (s := S1x256) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x1.size a ≤ S1024x1.size a
  hwx0_12 : ∀ i : grid0.Coords, EltTy.bits .f32 = 32 ∨ (Rect.block (s := S1024x1) S32x1.size (cc0_transform_12 i) (hinb0_12 i)).WholeWords (EltTy.packing .f32)

variable [Facts₀]

def dot_S4096x512_S512x4_S4096x4_1_0_0_1_n_n : DotDims S4096x512 S512x4 S4096x4 where
  lhsContracting := [1]
  rhsContracting := [0]
  lhsNonContracting := [0]
  rhsNonContracting := [1]
  lhsBatch := []
  rhsBatch := []
  wf := dot_S4096x512_S512x4_S4096x4_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x4.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15) S128x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S32x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S1024x512 : Shape := ⟨2, ![1024, 512]⟩
abbrev S256x512 : Shape := ⟨2, ![256, 512]⟩
abbrev S_ : Shape := ⟨0, ![]⟩
abbrev S4x512 : Shape := ⟨2, ![4, 512]⟩
abbrev S256x4 : Shape := ⟨2, ![256, 4]⟩
abbrev S256 : Shape := ⟨1, ![256]⟩
abbrev S1x256 : Shape := ⟨2, ![1, 256]⟩
abbrev S1 : Shape := ⟨1, ![1]⟩
abbrev S1x256x512 : Shape := ⟨3, ![1, 256, 512]⟩
abbrev S1024x1x512 : Shape := ⟨3, ![1024, 1, 512]⟩
abbrev S1024x256x512 : Shape := ⟨3, ![1024, 256, 512]⟩
abbrev S512 : Shape := ⟨1, ![512]⟩
abbrev S1x512 : Shape := ⟨2, ![1, 512]⟩
abbrev S1024x256x4 : Shape := ⟨3, ![1024, 256, 4]⟩
abbrev S1x256x4 : Shape := ⟨3, ![1, 256, 4]⟩
abbrev S1024x256 : Shape := ⟨2, ![1024, 256]⟩
abbrev S256x1 : Shape := ⟨2, ![256, 1]⟩
abbrev S1024x1 : Shape := ⟨2, ![1024, 1]⟩
abbrev S1x1 : Shape := ⟨2, ![1, 1]⟩
abbrev S1024 : Shape := ⟨1, ![1024]⟩

abbrev nBuf : Space → Nat
  | .hbm => 134
  | .vmem => 0
  | .smem => 0
  | _ => 0

abbrev hbmTy0_0 (i : Nat) : BufTy := match i % 128 with
  | 0 => ⟨S1024x512, .f32⟩
  | 1 => ⟨S256x512, .f32⟩
  | 2 => ⟨S256x512, .f32⟩
  | 3 => ⟨S256x512, .f32⟩
  | 4 => ⟨S256x512, .f32⟩
  | 5 => ⟨S_, .f32⟩
  | 6 => ⟨S4x512, .f32⟩
  | 7 => ⟨S256x4, .f32⟩
  | 8 => ⟨S256x4, .f32⟩
  | 9 => ⟨S256, .f32⟩
  | 10 => ⟨S1x256, .f32⟩
  | 11 => ⟨S1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S256x512, .f32⟩
  | 20 => ⟨S1x256x512, .f32⟩
  | 21 => ⟨S1x256x512, .f32⟩
  | 22 => ⟨S1x256x512, .f32⟩
  | 23 => ⟨S1024x1x512, .f32⟩
  | 24 => ⟨S1x256x512, .f32⟩
  | 25 => ⟨S1024x256x512, .f32⟩
  | 26 => ⟨S1024x256x512, .f32⟩
  | 27 => ⟨S1024x256x512, .f32⟩
  | 28 => ⟨S1024x256x512, .f32⟩
  | 29 => ⟨S1024x256x512, .f32⟩
  | 30 => ⟨S1024x256x512, .f32⟩
  | 31 => ⟨S1024x256x512, .f32⟩
  | 32 => ⟨S_, .f32⟩
  | 33 => ⟨S1024x256x512, .f32⟩
  | 34 => ⟨S1024x256x512, .f32⟩
  | 35 => ⟨S_, .f32⟩
  | 36 => ⟨S1024x256x512, .f32⟩
  | 37 => ⟨S1024x256x512, .f32⟩
  | 38 => ⟨S256x512, .f32⟩
  | 39 => ⟨S256x512, .f32⟩
  | 40 => ⟨S_, .f32⟩
  | 41 => ⟨S256x512, .f32⟩
  | 42 => ⟨S256x512, .f32⟩
  | 43 => ⟨S_, .f32⟩
  | 44 => ⟨S256x512, .f32⟩
  | 45 => ⟨S256x512, .f32⟩
  | 46 => ⟨S256x512, .f32⟩
  | 47 => ⟨S256x512, .f32⟩
  | 48 => ⟨S1x256x512, .f32⟩
  | 49 => ⟨S_, .f32⟩
  | 50 => ⟨S1024x256x512, .f32⟩
  | 51 => ⟨S1024x256x512, .f32⟩
  | 52 => ⟨S_, .f32⟩
  | 53 => ⟨S1024x256x512, .f32⟩
  | 54 => ⟨S1024x256x512, .f32⟩
  | 55 => ⟨S1024x256x512, .f32⟩
  | 56 => ⟨S1024x256x512, .f32⟩
  | 57 => ⟨S_, .f32⟩
  | 58 => ⟨S512, .f32⟩
  | 59 => ⟨S_, .f32⟩
  | 60 => ⟨S512, .f32⟩
  | 61 => ⟨S512, .f32⟩
  | 62 => ⟨S1x512, .f32⟩
  | 63 => ⟨S4x512, .f32⟩
  | 64 => ⟨S4x512, .f32⟩
  | 65 => ⟨S4x512, .f32⟩
  | 66 => ⟨S_, .f32⟩
  | 67 => ⟨S512, .f32⟩
  | 68 => ⟨S1x512, .f32⟩
  | 69 => ⟨S4x512, .f32⟩
  | 70 => ⟨S4x512, .f32⟩
  | 71 => ⟨S1024x256x4, .f32⟩
  | 72 => ⟨S1x256x4, .f32⟩
  | 73 => ⟨S1024x256x4, .f32⟩
  | 74 => ⟨S1024x256x4, .f32⟩
  | 75 => ⟨S_, .f32⟩
  | 76 => ⟨S1024x256x4, .f32⟩
  | 77 => ⟨S1024x256x4, .f32⟩
  | 78 => ⟨S1024x256x4, .f32⟩
  | 79 => ⟨S1024x256x4, .f32⟩
  | 80 => ⟨S_, .f32⟩
  | 81 => ⟨S1024x256x4, .f32⟩
  | 82 => ⟨S1024x256x4, .f32⟩
  | 83 => ⟨S_, .f32⟩
  | 84 => ⟨S1024x256x4, .f32⟩
  | 85 => ⟨S1024x256x4, .f32⟩
  | 86 => ⟨S256x4, .f32⟩
  | 87 => ⟨S256x4, .f32⟩
  | 88 => ⟨S_, .f32⟩
  | 89 => ⟨S256x4, .f32⟩
  | 90 => ⟨S256x4, .f32⟩
  | 91 => ⟨S_, .f32⟩
  | 92 => ⟨S256x4, .f32⟩
  | 93 => ⟨S256x4, .f32⟩
  | 94 => ⟨S1x256x4, .f32⟩
  | 95 => ⟨S1024x256x4, .f32⟩
  | 96 => ⟨S1024x256x4, .f32⟩
  | 97 => ⟨S_, .f32⟩
  | 98 => ⟨S1024x256, .f32⟩
  | 99 => ⟨S_, .f32⟩
  | 100 => ⟨S256, .f32⟩
  | 101 => ⟨S1x256, .f32⟩
  | 102 => ⟨S_, .f32⟩
  | 103 => ⟨S1x256, .f32⟩
  | 104 => ⟨S1x256, .f32⟩
  | 105 => ⟨S256, .f32⟩
  | 106 => ⟨S256, .f32⟩
  | 107 => ⟨S_, .f32⟩
  | 108 => ⟨S256, .f32⟩
  | 109 => ⟨S256, .f32⟩
  | 110 => ⟨S_, .f32⟩
  | 111 => ⟨S256, .f32⟩
  | 112 => ⟨S256, .f32⟩
  | 113 => ⟨S1x256, .f32⟩
  | 114 => ⟨S1x256, .f32⟩
  | 115 => ⟨S1024x256, .f32⟩
  | 116 => ⟨S1024x256, .f32⟩
  | 117 => ⟨S_, .f32⟩
  | 118 => ⟨S1024x256, .f32⟩
  | 119 => ⟨S1024x256, .f32⟩
  | 120 => ⟨S1024x256, .f32⟩
  | 121 => ⟨S1024x256, .f32⟩
  | 122 => ⟨S_, .f32⟩
  | 123 => ⟨S1024x256, .f32⟩
  | 124 => ⟨S1024x256, .f32⟩
  | 125 => ⟨S_, .f32⟩
  | 126 => ⟨S1024x256, .f32⟩
  | 127 => ⟨S1024x256, .f32⟩
  | _ => ⟨S1024x512, .f32⟩

abbrev hbmTy0_1 (i : Nat) : BufTy := match i % 128 with
  | 0 => ⟨S256x1, .f32⟩
  | 1 => ⟨S1024x1, .f32⟩
  | 2 => ⟨S1x1, .f32⟩
  | 3 => ⟨S1024x1, .f32⟩
  | 4 => ⟨S1024x1, .f32⟩
  | 5 => ⟨S1024, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_cst_16 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_18 : Ref sig .tc := ⟨.hbm, 107, rfl⟩
abbrev main_v73 : Ref sig .tc := ⟨.hbm, 108, rfl⟩
abbrev main_v74 : Ref sig .tc := ⟨.hbm, 109, rfl⟩
abbrev main_cst_19 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_21 : Ref sig .tc := ⟨.hbm, 122, rfl⟩
abbrev main_v85 : Ref sig .tc := ⟨.hbm, 123, rfl⟩
abbrev main_v86 : Ref sig .tc := ⟨.hbm, 124, rfl⟩
abbrev main_cst_22 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩

abbrev nD : Nat := 1
abbrev τ : Topo := Topo.v7x

variable {F : FTy → Type} [FloatOps F]

class Facts₀ : Prop where
  bcast_S256x512_S1x256x512_1_2 : S256x512.BroadcastsInDim S1x256x512 (![1, 2] : Fin 2 → Fin S1x256x512.rank)
  bcast_S_S1x256x512 : S_.BroadcastsInDim S1x256x512 (![] : Fin 0 → Fin S1x256x512.rank)
  bcast_S1024x512_S1024x1x512_0_2 : S1024x512.BroadcastsInDim S1024x1x512 (![0, 2] : Fin 2 → Fin S1024x1x512.rank)
  bcast_S1024x1x512_S1024x256x512_0_1_2 : S1024x1x512.BroadcastsInDim S1024x256x512 (![0, 1, 2] : Fin 3 → Fin S1024x256x512.rank)
  bcast_S1x256x512_S1024x256x512_0_1_2 : S1x256x512.BroadcastsInDim S1024x256x512 (![0, 1, 2] : Fin 3 → Fin S1024x256x512.rank)
  bcast_S_S1024x256x512 : S_.BroadcastsInDim S1024x256x512 (![] : Fin 0 → Fin S1024x256x512.rank)
  bcast_S_S256x512 : S_.BroadcastsInDim S256x512 (![] : Fin 0 → Fin S256x512.rank)
  reducesTo_S4x512_S512_d0 : S4x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bcast_S256x4_S1x256x4_1_2 : S256x4.BroadcastsInDim S1x256x4 (![1, 2] : Fin 2 → Fin S1x256x4.rank)
  bcast_S1x256x4_S1024x256x4_0_1_2 : S1x256x4.BroadcastsInDim S1024x256x4 (![0, 1, 2] : Fin 3 → Fin S1024x256x4.rank)
  bcast_S_S1024x256x4 : S_.BroadcastsInDim S1024x256x4 (![] : Fin 0 → Fin S1024x256x4.rank)
  bcast_S_S256x4 : S_.BroadcastsInDim S256x4 (![] : Fin 0 → Fin S256x4.rank)
  reducesTo_S1024x256x4_S1024x256_d2 : S1024x256x4.ReducesTo [2] S1024x256
  reducesTo_S256x4_S256_d1 : S256x4.ReducesTo [1] S256
  bcast_S256_S1x256_1 : S256.BroadcastsInDim S1x256 (![1] : Fin 1 → Fin S1x256.rank)
  bcast_S_S1x256 : S_.BroadcastsInDim S1x256 (![] : Fin 0 → Fin S1x256.rank)
  bcast_S_S256 : S_.BroadcastsInDim S256 (![] : Fin 0 → Fin S256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  transposes_S1x256_S256x1_1_0 : S1x256.Transposes [1, 0] S256x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S1024x256x512_S4x512_S1024x256x4_2_1_01_0_n_n_wf : DotDims.WF S1024x256x512 S4x512 S1024x256x4 [2] [1] [0, 1] [0] [] []
  dot_S1024x256_S256x1_S1024x1_1_0_0_1_n_n_wf : DotDims.WF S1024x256 S256x1 S1024x1 [1] [0] [0] [1] [] []

variable [Facts₀]

def dot_S1024x256x512_S4x512_S1024x256x4_2_1_01_0_n_n : DotDims S1024x256x512 S4x512 S1024x256x4 where
  lhsContracting := [2]
  rhsContracting := [1]
  lhsNonContracting := [0, 1]
  rhsNonContracting := [0]
  lhsBatch := []
  rhsBatch := []
  wf := dot_S1024x256x512_S4x512_S1024x256x4_2_1_01_0_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.RefRun.lean ====
/-
  The reference's run and its stages read at an index: this module only gathers the generated
  run of the reference program and its read-at-an-index lemmas for the modules that follow.
-/
import proofs.«165279_j87531433492888_2_alg».proof.Proof.Gen.ReferenceIdeal.Run
import proofs.«165279_j87531433492888_2_alg».proof.Proof.Gen.ReferenceIdeal.Read
-- ==== Proof.Spec.lean ====
/-
  The function both programs compute, stated once over rows.

  For a sample row `x` (512 features) and a rule `r` with its rows `θ`, `iq`, `es`, `mk` (512 features each),
  its group rows `tg`, `gm` (4 groups) and its scalar `kf`:

    sym d      = (σ(mk d) · tanh(es d)) · (2 · σ((κ · tanh(iq d)) · (x d − θ d)) − 1)
    evid g     = ∑ d, sym d · A g d                                   (A: the groups' softmax weights)
    gate       = σ(8 · ((∑ g, σ(6 · (evid g − tg g)) · σ(gm g)) − σ(kf) · ((∑ g, σ(gm g)) + ε)))

  and the result for a sample is `(∑ r, gate r · w r) + β`. Here σ is the logistic function and every
  operation is the exact one on the extended reals; the five float words (2, 1, 6, 8 and ε, the f32 nearest
  10⁻⁶) are kept as the words the programs print, the same on both sides, so they are never evaluated.
  The definitions take ROWS (functions of the feature or group index), so that a block of rows staged by
  the kernel and the whole arrays of the reference instantiate the same terms.
-/
import Idealize.ShloMosaic.PureOps.Ideal
import Idealize.ShloMosaic.PureOps.Ideal.Laws

noncomputable section

namespace Cert.RuleScore

open Idealize.ShloMosaic

/-- One feature's signed comparison. -/
def sym (κ mk es iq xv tv : EReal) : EReal :=
  (Ideal.logistic mk * Ideal.tanh es)
    * (Ideal.ofBits .f32 0x40000000#32 * Ideal.logistic ((κ * Ideal.tanh iq) * (xv - tv)) - Ideal.ofBits .f32 0x3F800000#32)

/-- A rule's evidence for one group: the features' signed comparisons weighted by the group's row `Ag`. -/
def evid (κ : EReal) (Ag xb thr iqr esr mkr : Fin 512 → EReal) : EReal :=
  ∑ d : Fin 512, sym κ (mkr d) (esr d) (iqr d) (xb d) (thr d) * Ag d

/-- The gate of a rule from its four evidences `e`: the soft count of groups over threshold against the
    rule's soft quota. -/
def gateOf (e tgr gmr : Fin 4 → EReal) (kfr : EReal) : EReal :=
  Ideal.logistic (Ideal.ofBits .f32 0x41000000#32
    * ((∑ g : Fin 4, Ideal.logistic (Ideal.ofBits .f32 0x40C00000#32 * (e g - tgr g)) * Ideal.logistic (gmr g))
        - Ideal.logistic kfr * ((∑ g : Fin 4, Ideal.logistic (gmr g)) + Ideal.ofBits .f32 0x358637BD#32)))

/-- The gate of a rule for a sample, from the rows. -/
def gate (κ : EReal) (A : Fin 4 → Fin 512 → EReal) (xb thr iqr esr mkr : Fin 512 → EReal) (tgr gmr : Fin 4 → EReal)
    (kfr : EReal) : EReal :=
  gateOf (fun g => evid κ (A g) xb thr iqr esr mkr) tgr gmr kfr

/-- Row `p` of 32 samples and rule `q` of 128 as one row of the 4096 the kernel's product is taken over
    (sample-major, as a reshape of the 32 × 128 × 512 block lays them out). -/
def flat (p : Fin 32) (q : Fin 128) : Fin 4096 := ⟨p.val * 128 + q.val, by have := p.isLt; have := q.isLt; omega⟩

/-- A sum over 256 rules is the sum over the first 128 plus the sum over the last 128: the only regrouping
    between the two programs (addition on the extended reals is commutative and associative). -/
theorem sum_two_halves (f : Fin 256 → EReal) :
    ∑ r : Fin 256, f r
      = (∑ q : Fin 128, f ⟨q.val, by have := q.isLt; omega⟩) + ∑ q : Fin 128, f ⟨128 + q.val, by have := q.isLt; omega⟩ := by
  exact Fin.sum_univ_add (a := 128) (b := 128) (f := (f : Fin (128 + 128) → EReal))

end Cert.RuleScore

end
-- ==== Proof.RefGate.lean ====
/-
  The reference program read at one sample.

  The reference computes, for sample b, one number: it forms for every rule r and feature d the signed comparison
  of the sample's feature with the rule's threshold, contracts the features against the four groups' weights to
  get the rule's four evidences, turns them into the rule's gate (the soft count of groups over threshold against
  the rule's soft quota, through a logistic), contracts the gates against the head weights and adds the bias.
  Each lemma below reads one stage of that chain at explicit coordinates (b a sample, r a rule, g a group, d a
  feature) and identifies it with the corresponding term of the specification. Two sub-chains are never opened:
  the scalar slope (read at its only index) and the groups' softmax weights (read at (g, d)).

  Every logistic the program spells as 1 / (1 + exp (−t)); the word of one is evaluated only inside that pattern.
  A sum's initial value is the zero word, which is the extended real zero.
-/
import proofs.«165279_j87531433492888_2_alg».proof.Proof.Spec
import proofs.«165279_j87531433492888_2_alg».proof.Proof.Gen.ReferenceIdeal.Read
import Idealize.ShloMosaic.Lib.ValueIdx
import Idealize.ShloMosaic.PureOps.Ideal.Laws

noncomputable section
namespace Cert.ReferenceIdeal.RefValue
open Cert.ReferenceIdeal Cert.ReferenceIdeal.Read Idealize.ShloMosaic Idealize.ShloMosaic.ValueIdx

/-- The f32 word of one denotes the extended real one. -/
theorem one_word : Ideal.ofBits .f32 0x3F800000#32 = 1 := by
  simp [Ideal.ofBits, Ideal.ieee, -EReal.coe_mul]; norm_num

/-- One over one plus the exponential of the negated argument is the logistic function. -/
theorem logistic_host (t : EReal) :
    Ideal.div (Ideal.ofBits .f32 0x3F800000#32) (Ideal.ofBits .f32 0x3F800000#32 + Ideal.exp (-t)) = Ideal.logistic t := by
  rw [one_word]; rfl

/-- The feature weight of rule r at feature d: the logistic of the mask logit times the tanh of the sign parameter. -/
theorem mask_apply (x3 x4 : (⟨S256x512, .f32⟩ : BufTy).Contents (Elt Ideal)) (r : Fin 256) (d : Fin 512) :
    val_main_v26 (F := Ideal) x3 x4 (ix2 r d) = Ideal.logistic (x4 (ix2 r d)) * Ideal.tanh (x3 (ix2 r d)) := by
  rw [val_main_v26_apply, val_main_v24_apply, val_main_v23_apply, val_main_cst_4_apply, val_main_v22_apply,
    val_main_v21_apply, val_main_cst_3_apply, val_main_v20_apply, val_main_v19_apply, val_main_v25_apply]
  simp only [Ideal.mulf_def, Ideal.hostDivf_def, Ideal.addf_def, Ideal.hostUnary_exp_def, Ideal.hostNegf_def,
    Ideal.negf_def, Ideal.hostUnary_tanh_def, Ideal.ofBits_def]
  rw [logistic_host]

/-- Dropping the leading unit axis and then the sample axis of a (sample, rule, feature) index leaves (rule, feature). -/
theorem idx_v3_v11 (b : Fin 1024) (r : Fin 256) (d : Fin 512) :
    idx_main_v3 (idx_main_v11 (ix3 b r d)) = ix2 r d := by
  funext a; match a with | ⟨0, _⟩ => rfl | ⟨1, _⟩ => rfl
theorem idx_v7_v9 (b : Fin 1024) (r : Fin 256) (d : Fin 512) :
    idx_main_v7 (idx_main_v9 (ix3 b r d)) = ix2 r d := by
  funext a; match a with | ⟨0, _⟩ => rfl | ⟨1, _⟩ => rfl
theorem idx_v27_v32 (b : Fin 1024) (r : Fin 256) (d : Fin 512) :
    idx_main_v27 (idx_main_v32 (ix3 b r d)) = ix2 r d := by
  funext a; match a with | ⟨0, _⟩ => rfl | ⟨1, _⟩ => rfl
/-- Dropping the rule axis of a (sample, rule, feature) index leaves (sample, feature). -/
theorem idx_v6_v8 (b : Fin 1024) (r : Fin 256) (d : Fin 512) :
    idx_main_v6 (idx_main_v8 (ix3 b r d)) = ix2 b d := by
  funext a; match a with | ⟨0, _⟩ => rfl | ⟨1, _⟩ => rfl
/-- A scalar is read at its only index. -/
theorem idx_v4_v11 (b : Fin 1024) (r : Fin 256) (d : Fin 512) :
    idx_main_v4 (idx_main_v11 (ix3 b r d)) = ix0 := rfl

/-- The comparison of sample b's feature d against rule r's threshold: the logistic of slope times difference. -/
theorem cmp_apply (x0 : (⟨S1024x512, .f32⟩ : BufTy).Contents (Elt Ideal)) (x1 x2 : (⟨S256x512, .f32⟩ : BufTy).Contents (Elt Ideal))
    (x5 : (⟨S_, .f32⟩ : BufTy).Contents (Elt Ideal)) (b : Fin 1024) (r : Fin 256) (d : Fin 512) :
    val_main_v18 (F := Ideal) x0 x1 x2 x5 (ix3 b r d)
      = Ideal.logistic ((val_main_v1 (F := Ideal) x5 ix0 * Ideal.tanh (x2 (ix2 r d))) * (x0 (ix2 b d) - x1 (ix2 r d))) := by
  rw [val_main_v18_apply, val_main_v17_apply, val_main_cst_2_apply, val_main_v16_apply, val_main_v15_apply,
    val_main_cst_1_apply, val_main_v14_apply, val_main_v13_apply, val_main_v12_apply, val_main_v11_apply,
    val_main_v5_apply, val_main_v4_apply, val_main_v3_apply, val_main_v2_apply, val_main_v10_apply,
    val_main_v8_apply, val_main_v6_apply, val_main_v9_apply, val_main_v7_apply,
    idx_v3_v11, idx_v7_v9, idx_v6_v8, idx_v4_v11]
  simp only [Ideal.mulf_def, Ideal.subf_def, Ideal.hostDivf_def, Ideal.addf_def, Ideal.hostUnary_exp_def, Ideal.hostNegf_def,
    Ideal.negf_def, Ideal.hostUnary_tanh_def, Ideal.ofBits_def]
  rw [logistic_host]

/-- Operation 33 at (b, r, d) is the signed comparison of the specification. -/
theorem sym_apply (x0 : (⟨S1024x512, .f32⟩ : BufTy).Contents (Elt Ideal)) (x1 x2 x3 x4 : (⟨S256x512, .f32⟩ : BufTy).Contents (Elt Ideal))
    (x5 : (⟨S_, .f32⟩ : BufTy).Contents (Elt Ideal)) (b : Fin 1024) (r : Fin 256) (d : Fin 512) :
    val_main_v33 (F := Ideal) x0 x1 x2 x3 x4 x5 (ix3 b r d)
      = Cert.RuleScore.sym (val_main_v1 (F := Ideal) x5 ix0) (x4 (ix2 r d)) (x3 (ix2 r d)) (x2 (ix2 r d)) (x0 (ix2 b d)) (x1 (ix2 r d)) := by
  rw [val_main_v33_apply, val_main_v32_apply, val_main_v27_apply, idx_v27_v32, mask_apply,
    val_main_v31_apply, val_main_v29_apply, val_main_v28_apply, val_main_cst_5_apply, val_main_v30_apply, val_main_cst_6_apply,
    cmp_apply]
  rfl

/-- The contraction over features reads the left operand at (b, r, d) … -/
theorem lidx_v45 (b : Fin 1024) (r : Fin 256) (g : Fin 4) (d : Fin 512) :
    lidx_main_v45 (ix3 b r g) d = ix3 b r d := by
  funext a; match a with | ⟨0, _⟩ => rfl | ⟨1, _⟩ => rfl | ⟨2, _⟩ => rfl
/-- … and the group weights at (g, d). -/
theorem ridx_v45 (b : Fin 1024) (r : Fin 256) (g : Fin 4) (d : Fin 512) :
    ridx_main_v45 (ix3 b r g) d = ix2 g d := by
  funext a; match a with | ⟨0, _⟩ => rfl | ⟨1, _⟩ => rfl

/-- Operation 45 at (b, r, g) is rule r's evidence for group g on sample b. -/
theorem evid_apply (x0 : (⟨S1024x512, .f32⟩ : BufTy).Contents (Elt Ideal)) (x1 x2 x3 x4 : (⟨S256x512, .f32⟩ : BufTy).Contents (Elt Ideal))
    (x5 : (⟨S_, .f32⟩ : BufTy).Contents (Elt Ideal)) (x6 : (⟨S4x512, .f32⟩ : BufTy).Contents (Elt Ideal))
    (b : Fin 1024) (r : Fin 256) (g : Fin 4) :
    val_main_v45 (F := Ideal) x0 x1 x2 x3 x4 x5 x6 (ix3 b r g)
      = Cert.RuleScore.evid (val_main_v1 (F := Ideal) x5 ix0) (fun d => val_main_v44 (F := Ideal) x6 (ix2 g d))
          (fun d => x0 (ix2 b d)) (fun d => x1 (ix2 r d)) (fun d => x2 (ix2 r d)) (fun d => x3 (ix2 r d)) (fun d => x4 (ix2 r d)) := by
  rw [val_main_v45_apply]
  unfold Cert.RuleScore.evid
  refine Finset.sum_congr rfl fun d _ => ?_
  rw [lidx_v45, ridx_v45, sym_apply]

/-- The logistic of a group-mask logit, at (r, g). -/
theorem gmask_apply (x8 : (⟨S256x4, .f32⟩ : BufTy).Contents (Elt Ideal)) (r : Fin 256) (g : Fin 4) :
    val_main_v62 (F := Ideal) x8 (ix2 r g) = Ideal.logistic (x8 (ix2 r g)) := by
  rw [val_main_v62_apply, val_main_v61_apply, val_main_cst_14_apply, val_main_v60_apply, val_main_v59_apply,
    val_main_cst_13_apply, val_main_v58_apply, val_main_v57_apply]
  simp only [Ideal.hostDivf_def, Ideal.addf_def, Ideal.hostUnary_exp_def, Ideal.hostNegf_def, Ideal.negf_def, Ideal.ofBits_def]
  rw [logistic_host]

/-- Dropping the leading unit axis and then the sample axis of a (sample, rule, group) index leaves (rule, group). -/
theorem idx_v46_v47 (b : Fin 1024) (r : Fin 256) (g : Fin 4) :
    idx_main_v46 (idx_main_v47 (ix3 b r g)) = ix2 r g := by
  funext a; match a with | ⟨0, _⟩ => rfl | ⟨1, _⟩ => rfl
theorem idx_v63_v64 (b : Fin 1024) (r : Fin 256) (g : Fin 4) :
    idx_main_v63 (idx_main_v64 (ix3 b r g)) = ix2 r g := by
  funext a; match a with | ⟨0, _⟩ => rfl | ⟨1, _⟩ => rfl

/-- Operation 65 at (b, r, g): the soft indicator that group g's evidence passes its threshold, times the group's mask. -/
theorem vote_apply (x0 : (⟨S1024x512, .f32⟩ : BufTy).Contents (Elt Ideal)) (x1 x2 x3 x4 : (⟨S256x512, .f32⟩ : BufTy).Contents (Elt Ideal))
    (x5 : (⟨S_, .f32⟩ : BufTy).Contents (Elt Ideal)) (x6 : (⟨S4x512, .f32⟩ : BufTy).Contents (Elt Ideal))
    (x7 x8 : (⟨S256x4, .f32⟩ : BufTy).Contents (Elt Ideal)) (b : Fin 1024) (r : Fin 256) (g : Fin 4) :
    val_main_v65 (F := Ideal) x0 x1 x2 x3 x4 x5 x6 x7 x8 (ix3 b r g)
      = Ideal.logistic (Ideal.ofBits .f32 0x40C00000#32
          * (val_main_v45 (F := Ideal) x0 x1 x2 x3 x4 x5 x6 (ix3 b r g) - x7 (ix2 r g)))
        * Ideal.logistic (x8 (ix2 r g)) := by
  rw [val_main_v65_apply, val_main_v64_apply, val_main_v63_apply, idx_v63_v64, gmask_apply,
    val_main_v56_apply, val_main_v55_apply, val_main_cst_12_apply, val_main_v54_apply, val_main_v53_apply, val_main_cst_11_apply,
    val_main_v52_apply, val_main_v51_apply, val_main_v50_apply, val_main_v49_apply, val_main_cst_10_apply,
    val_main_v48_apply, val_main_v47_apply, val_main_v46_apply, idx_v46_v47]
  simp only [Ideal.mulf_def, Ideal.subf_def, Ideal.hostDivf_def, Ideal.addf_def, Ideal.hostUnary_exp_def, Ideal.hostNegf_def,
    Ideal.negf_def, Ideal.ofBits_def]
  rw [logistic_host]

/-- The sum over groups of operation 66 reads operation 65 at (b, r, g). -/
theorem idx_v66 (b : Fin 1024) (r : Fin 256) (g : Fin 4) : idx_main_v66 (ix2 b r) g = ix3 b r g := by
  funext a; match a with | ⟨0, _⟩ => rfl | ⟨1, _⟩ => rfl | ⟨2, _⟩ => rfl
/-- The sum over groups of operation 67 reads the group masks at (r, g). -/
theorem idx_v67 (r : Fin 256) (g : Fin 4) : idx_main_v67 (ix1 r) g = ix2 r g := by
  funext a; match a with | ⟨0, _⟩ => rfl | ⟨1, _⟩ => rfl
/-- The quota row is read at rule r. -/
theorem idx_v68_v79 (b : Fin 1024) (r : Fin 256) : idx_main_v68 (idx_main_v79 (ix2 b r)) = ix1 r := by
  funext a; match a with | ⟨0, _⟩ => rfl
theorem idx_v77_v79 (b : Fin 1024) (r : Fin 256) : idx_main_v77 (idx_main_v79 (ix2 b r)) = ix1 r := by
  funext a; match a with | ⟨0, _⟩ => rfl

/-- The logistic of rule r's quota parameter. -/
theorem kfrac_apply (x9 : (⟨S256, .f32⟩ : BufTy).Contents (Elt Ideal)) (r : Fin 256) :
    val_main_v76 (F := Ideal) x9 (ix1 r) = Ideal.logistic (x9 (ix1 r)) := by
  rw [val_main_v76_apply, val_main_v75_apply, val_main_cst_19_apply, val_main_v74_apply, val_main_v73_apply,
    val_main_cst_18_apply, val_main_v72_apply, val_main_v71_apply]
  simp only [Ideal.hostDivf_def, Ideal.addf_def, Ideal.hostUnary_exp_def, Ideal.hostNegf_def, Ideal.negf_def, Ideal.ofBits_def]
  rw [logistic_host]

/-- Operation 79 at (b, r): rule r's soft quota, the logistic of its parameter times (the sum of its group masks plus ε). -/
theorem quota_apply (x8 : (⟨S256x4, .f32⟩ : BufTy).Contents (Elt Ideal)) (x9 : (⟨S256, .f32⟩ : BufTy).Contents (Elt Ideal))
    (b : Fin 1024) (r : Fin 256) :
    val_main_v79 (F := Ideal) x8 x9 (ix2 b r)
      = Ideal.logistic (x9 (ix1 r))
          * ((∑ g : Fin 4, Ideal.logistic (x8 (ix2 r g))) + Ideal.ofBits .f32 0x358637BD#32) := by
  rw [val_main_v79_apply, val_main_v78_apply, val_main_v77_apply, idx_v77_v79, kfrac_apply,
    val_main_v70_apply, val_main_v68_apply, idx_v68_v79, val_main_v67_apply, val_main_cst_16_apply,
    val_main_v69_apply, val_main_cst_17_apply]
  simp only [Ideal.mulf_def, Ideal.addf_def, Ideal.ofBits_def, Ideal.ofBits_zero_f32, zero_add, idx_v67, gmask_apply]

/-- Operation 88 at (b, r) is rule r's gate on sample b. -/
theorem gate_apply (x0 : (⟨S1024x512, .f32⟩ : BufTy).Contents (Elt Ideal)) (x1 x2 x3 x4 : (⟨S256x512, .f32⟩ : BufTy).Contents (Elt Ideal))
    (x5 : (⟨S_, .f32⟩ : BufTy).Contents (Elt Ideal)) (x6 : (⟨S4x512, .f32⟩ : BufTy).Contents (Elt Ideal))
    (x7 x8 : (⟨S256x4, .f32⟩ : BufTy).Contents (Elt Ideal)) (x9 : (⟨S256, .f32⟩ : BufTy).Contents (Elt Ideal))
    (b : Fin 1024) (r : Fin 256) :
    val_main_v88 (F := Ideal) x0 x1 x2 x3 x4 x5 x6 x7 x8 x9 (ix2 b r)
      = Cert.RuleScore.gate (val_main_v1 (F := Ideal) x5 ix0) (fun g d => val_main_v44 (F := Ideal) x6 (ix2 g d))
          (fun d => x0 (ix2 b d)) (fun d => x1 (ix2 r d)) (fun d => x2 (ix2 r d)) (fun d => x3 (ix2 r d)) (fun d => x4 (ix2 r d))
          (fun g => x7 (ix2 r g)) (fun g => x8 (ix2 r g)) (x9 (ix1 r)) := by
  rw [val_main_v88_apply, val_main_v87_apply, val_main_cst_22_apply, val_main_v86_apply, val_main_v85_apply, val_main_cst_21_apply,
    val_main_v84_apply, val_main_v83_apply, val_main_v82_apply, val_main_v81_apply, val_main_cst_20_apply,
    val_main_v80_apply, quota_apply, val_main_v66_apply, val_main_cst_15_apply]
  simp only [Ideal.mulf_def, Ideal.subf_def, Ideal.hostDivf_def, Ideal.addf_def, Ideal.hostUnary_exp_def, Ideal.hostNegf_def,
    Ideal.negf_def, Ideal.ofBits_def, Ideal.ofBits_zero_f32, zero_add, idx_v66, vote_apply, evid_apply]
  rw [logistic_host]
  rfl

/-- The reshape of operation 94 reads operation 93 at (b, 0). -/
theorem idx_v94 (b : Fin 1024) : idx_main_v94 (ix1 b) = ix2 b (0 : Fin 1) := by
  funext a; match a with | ⟨0, _⟩ => exact Fin.ext (Nat.div_one _) | ⟨1, _⟩ => rfl
/-- The head's contraction over rules reads the gates at (b, r) … -/
theorem lidx_v90 (b : Fin 1024) (r : Fin 256) : lidx_main_v90 (ix2 b (0 : Fin 1)) r = ix2 b r := by
  funext a; match a with | ⟨0, _⟩ => rfl | ⟨1, _⟩ => rfl
/-- … and the transposed head weights at (0, r). -/
theorem idx_v89_v90 (b : Fin 1024) (r : Fin 256) :
    idx_main_v89 (ridx_main_v90 (ix2 b (0 : Fin 1)) r) = ix2 (0 : Fin 1) r := by
  funext a; match a with | ⟨0, _⟩ => rfl | ⟨1, _⟩ => rfl
/-- The bias is read at its only index. -/
theorem idx_v91_v92 (b : Fin 1024) : idx_main_v91 (idx_main_v92 (ix2 b (0 : Fin 1))) = ix1 (0 : Fin 1) := by
  funext a; match a with | ⟨0, _⟩ => rfl

/-- The reference's result for sample b: the sum over the 256 rules of gate times head weight, plus the bias. -/
theorem result_apply
    (x0 : (⟨S1024x512, .f32⟩ : BufTy).Contents (Elt Ideal)) (x1 x2 x3 x4 : (⟨S256x512, .f32⟩ : BufTy).Contents (Elt Ideal))
    (x5 : (⟨S_, .f32⟩ : BufTy).Contents (Elt Ideal)) (x6 : (⟨S4x512, .f32⟩ : BufTy).Contents (Elt Ideal))
    (x7 x8 : (⟨S256x4, .f32⟩ : BufTy).Contents (Elt Ideal)) (x9 : (⟨S256, .f32⟩ : BufTy).Contents (Elt Ideal))
    (x10 : (⟨S1x256, .f32⟩ : BufTy).Contents (Elt Ideal)) (x11 : (⟨S1, .f32⟩ : BufTy).Contents (Elt Ideal)) (b : Fin 1024) :
    val_main_v94 (F := Ideal) x0 x1 x2 x3 x4 x5 x6 x7 x8 x9 x10 x11 (ix1 b)
      = (∑ r : Fin 256,
          Cert.RuleScore.gate (val_main_v1 (F := Ideal) x5 ix0) (fun g d => val_main_v44 (F := Ideal) x6 (ix2 g d))
            (fun d => x0 (ix2 b d)) (fun d => x1 (ix2 r d)) (fun d => x2 (ix2 r d)) (fun d => x3 (ix2 r d)) (fun d => x4 (ix2 r d))
            (fun g => x7 (ix2 r g)) (fun g => x8 (ix2 r g)) (x9 (ix1 r))
          * x10 (ix2 (0 : Fin 1) r))
        + x11 (ix1 (0 : Fin 1)) := by
  rw [val_main_v94_apply, idx_v94, val_main_v93_apply, val_main_v92_apply, val_main_v91_apply, idx_v91_v92, val_main_v90_apply]
  simp only [Ideal.addf_def, lidx_v90, gate_apply, val_main_v89_apply, idx_v89_v90]

end Cert.ReferenceIdeal.RefValue
end
-- ==== Proof.Pieces.lean ====
/-
  What one run of the kernel body leaves behind, as values.

  The body is run in two situations. At the first rule tile of a sample tile it clears its 32 × 1 accumulator and then
  adds the tile's partial sums to it; at the second rule tile it adds that tile's partial sums to what the first left
  and writes accumulator plus bias to the output block. The executed body leaves each buffer as a list of stored
  pieces; here each list is read back as ONE value: the payload of its last covering store, over the loaded blocks.
-/
import proofs.«165279_j87531433492888_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First rule tile: the accumulator is cleared and ends at the cleared block plus this tile's partial sums. -/
theorem acc_first (c : Dev nD) (i : grid0.Coords) (a2 : Memref sig .tc .vmem S32x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S512x4 .f32) (h7 : a7.IsWhole) (a8 : Memref sig .tc .vmem S128x4 .f32) (h8 : a8.IsWhole) (a9 : Memref sig .tc .vmem S128x4 .f32) (h9 : a9.IsWhole) (a10 : Memref sig .tc .vmem S128x1 .f32) (h10 : a10.IsWhole) (a11 : Memref sig .tc .vmem S1x128 .f32) (h11 : a11.IsWhole) (a12 : Memref sig .tc .vmem S1x1 .f32) (h12 : a12.IsWhole) (a13 : Memref sig .tc .vmem S1x1 .f32) (h13 : a13.IsWhole) (a14 : Memref sig .tc .vmem S32x1 .f32) (h14 : a14.IsWhole) (a15 : Memref sig .tc .vmem S32x1 .f32) (h15 : a15.IsWhole) (hc0 : cond0_0 i) (hc1 : ¬cond0_1 i)
    (x0 : Vec F S32x512 .f32) (x1 : Vec F S128x512 .f32) (x2 : Vec F S128x512 .f32) (x3 : Vec F S128x512 .f32) (x4 : Vec F S128x512 .f32) (x5 : Vec F S512x4 .f32) (x6 : Vec F S128x4 .f32) (x7 : Vec F S128x4 .f32) (x8 : Vec F S128x1 .f32) (x9 : Vec F S1x128 .f32) (x10 : Vec F S1x1 .f32) (x11 : Vec F S1x1 .f32) :
    sout0_A_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 = k0_pay4 (k0_pay3 x0 x1 x10 x2 x4 x3 x5) x6 x7 x8 x9 (k0_pay2 (F := F)) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11)]
  unfold kernelRun0_A
  dsimp only
  sl_unfold_words
  rw [View.canon_cons_unit_zero (S := S32x1) hz, View.readCov_unit_zero (S := S32x1) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S32x512) hz, View.ld_unit_zero (S := S128x512) hz, View.ld_unit_zero (S := S512x4) hz, View.ld_unit_zero (S := S128x4) hz, View.ld_unit_zero (S := S128x1) hz, View.ld_unit_zero (S := S1x128) hz, View.ld_unit_zero (S := S1x1) hz, View.ld_unit_zero (S := S32x1) hz]

/-- Second rule tile: the accumulator ends at what it held, `xs0`, plus this tile's partial sums. -/
theorem acc_second (c : Dev nD) (i : grid0.Coords) (a2 : Memref sig .tc .vmem S32x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S512x4 .f32) (h7 : a7.IsWhole) (a8 : Memref sig .tc .vmem S128x4 .f32) (h8 : a8.IsWhole) (a9 : Memref sig .tc .vmem S128x4 .f32) (h9 : a9.IsWhole) (a10 : Memref sig .tc .vmem S128x1 .f32) (h10 : a10.IsWhole) (a11 : Memref sig .tc .vmem S1x128 .f32) (h11 : a11.IsWhole) (a12 : Memref sig .tc .vmem S1x1 .f32) (h12 : a12.IsWhole) (a13 : Memref sig .tc .vmem S1x1 .f32) (h13 : a13.IsWhole) (a14 : Memref sig .tc .vmem S32x1 .f32) (h14 : a14.IsWhole) (a15 : Memref sig .tc .vmem S32x1 .f32) (h15 : a15.IsWhole) (hc0 : ¬cond0_0 i) (hc1 : cond0_1 i)
    (x0 : Vec F S32x512 .f32) (x1 : Vec F S128x512 .f32) (x2 : Vec F S128x512 .f32) (x3 : Vec F S128x512 .f32) (x4 : Vec F S128x512 .f32) (x5 : Vec F S512x4 .f32) (x6 : Vec F S128x4 .f32) (x7 : Vec F S128x4 .f32) (x8 : Vec F S128x1 .f32) (x9 : Vec F S1x128 .f32) (x10 : Vec F S1x1 .f32) (x11 : Vec F S1x1 .f32) (xs0 : Vec F S32x1 .f32) :
    sout0_B_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 xs0 = k0_pay4 (k0_pay3 x0 x1 x10 x2 x4 x3 x5) x6 x7 x8 x9 xs0 := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 xs0)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S32x512) hz, View.ld_unit_zero (S := S128x512) hz, View.ld_unit_zero (S := S512x4) hz, View.ld_unit_zero (S := S128x4) hz, View.ld_unit_zero (S := S128x1) hz, View.ld_unit_zero (S := S1x128) hz, View.ld_unit_zero (S := S1x1) hz, View.ld_unit_zero (S := S32x1) hz]

/-- Second rule tile: the output block is written with that accumulator plus the bias block `x11`. -/
theorem out_second (c : Dev nD) (i : grid0.Coords) (a2 : Memref sig .tc .vmem S32x512 .f32) (h2 : a2.IsWhole) (a3 : Memref sig .tc .vmem S128x512 .f32) (h3 : a3.IsWhole) (a4 : Memref sig .tc .vmem S128x512 .f32) (h4 : a4.IsWhole) (a5 : Memref sig .tc .vmem S128x512 .f32) (h5 : a5.IsWhole) (a6 : Memref sig .tc .vmem S128x512 .f32) (h6 : a6.IsWhole) (a7 : Memref sig .tc .vmem S512x4 .f32) (h7 : a7.IsWhole) (a8 : Memref sig .tc .vmem S128x4 .f32) (h8 : a8.IsWhole) (a9 : Memref sig .tc .vmem S128x4 .f32) (h9 : a9.IsWhole) (a10 : Memref sig .tc .vmem S128x1 .f32) (h10 : a10.IsWhole) (a11 : Memref sig .tc .vmem S1x128 .f32) (h11 : a11.IsWhole) (a12 : Memref sig .tc .vmem S1x1 .f32) (h12 : a12.IsWhole) (a13 : Memref sig .tc .vmem S1x1 .f32) (h13 : a13.IsWhole) (a14 : Memref sig .tc .vmem S32x1 .f32) (h14 : a14.IsWhole) (a15 : Memref sig .tc .vmem S32x1 .f32) (h15 : a15.IsWhole) (hc0 : ¬cond0_0 i) (hc1 : cond0_1 i)
    (x0 : Vec F S32x512 .f32) (x1 : Vec F S128x512 .f32) (x2 : Vec F S128x512 .f32) (x3 : Vec F S128x512 .f32) (x4 : Vec F S128x512 .f32) (x5 : Vec F S512x4 .f32) (x6 : Vec F S128x4 .f32) (x7 : Vec F S128x4 .f32) (x8 : Vec F S128x1 .f32) (x9 : Vec F S1x128 .f32) (x10 : Vec F S1x1 .f32) (x11 : Vec F S1x1 .f32) (xs0 : Vec F S32x1 .f32) :
    out0_B_12 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 xs0
      = k0_pay1 (k0_pay4 (k0_pay3 x0 x1 x10 x2 x4 x3 x5) x6 x7 x8 x9 xs0) x11 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 hc0 hc1 x0 x1 x2 x3 x4 x5 x6 x7 x8 x9 x10 x11 xs0)]
  unfold kernelRun0_B
  dsimp only
  sl_unfold_words
  rw [View.canon_unit_zero hz, View.readCov_unit_zero (S := S32x1) _ hz]
  simp only [View.readAt_eq_ld, h2.read_unread, h3.read_unread, h4.read_unread, h5.read_unread, h6.read_unread, h7.read_unread, h8.read_unread, h9.read_unread, h10.read_unread, h11.read_unread, h12.read_unread, h13.read_unread, h14.read_unread, h15.read_unread, View.ld_unit_zero (S := S32x512) hz, View.ld_unit_zero (S := S128x512) hz, View.ld_unit_zero (S := S512x4) hz, View.ld_unit_zero (S := S128x4) hz, View.ld_unit_zero (S := S128x1) hz, View.ld_unit_zero (S := S1x128) hz, View.ld_unit_zero (S := S1x1) hz, View.ld_unit_zero (S := S32x1) hz]

end Cert.KernelIdeal.Pieces

end
-- ==== Proof.Blocks.lean ====
/-
  Where each staged block sits in its array.

  The grid has 64 points; point `t` works on sample tile `t / 2` (32 rows) and rule tile `t % 2` (128 rows). The
  sample array moves with the sample tile, the rule arrays and the head weights with the rule tile, the transposed
  group weights, κ and the bias are staged whole, and the output block moves with the sample tile. An entry of a block
  is the entry of the array at block index × block size + the coordinate inside the block, on each axis.
-/
import proofs.«165279_j87531433492888_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps of the thirteen windows, decided once over the grid's 64 points. -/
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val % 2 ∧ win0_2.index t (1 : Fin 2) = 0
    ∧ win0_3.index t (0 : Fin 2) = t.val % 2 ∧ win0_3.index t (1 : Fin 2) = 0
    ∧ win0_4.index t (0 : Fin 2) = t.val % 2 ∧ win0_4.index t (1 : Fin 2) = 0
    ∧ win0_5.index t (0 : Fin 2) = 0 ∧ win0_5.index t (1 : Fin 2) = 0
    ∧ win0_6.index t (0 : Fin 2) = t.val % 2 ∧ win0_6.index t (1 : Fin 2) = 0
    ∧ win0_7.index t (0 : Fin 2) = t.val % 2 ∧ win0_7.index t (1 : Fin 2) = 0
    ∧ win0_8.index t (0 : Fin 2) = t.val % 2 ∧ win0_8.index t (1 : Fin 2) = 0
    ∧ win0_9.index t (0 : Fin 2) = 0 ∧ win0_9.index t (1 : Fin 2) = t.val % 2
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = t.val / 2 ∧ win0_12.index t (1 : Fin 2) = 0 :=
  (by decide +kernel : ∀ t : Fin grid0.N, _)

/-- Window 0's block at point `t`, entry `(p, q)`, is entry `(t.val / 2 * 32 + p, q)` of its array. -/
theorem blk0 (c : Dev nD) (t : Fin cfg0.N) (p : Fin 32) (q : Fin 512)
    (hp : t.val / 2 * 32 + p.val < 1024) (hq : q.val < 512) :
    (iblk m c 0 t : Vec F S32x512 .f32) (ix2 p q)
      = V m c main_arg0 (ix2 (⟨t.val / 2 * 32 + p.val, hp⟩ : Fin 1024) (⟨q.val, hq⟩ : Fin 512)) := by
  have e0 : win0_0.index t (0 : Fin 2) = t.val / 2 := (idx_facts t).1
  have e1 : win0_0.index t (1 : Fin 2) = 0 := (idx_facts t).2.1
  unfold iblk
  rw [View.read_apply]
  show V m c main_arg0 (((cfg0.win 0).blk t).view.emb (ix2 p q)) = _
  refine congrArg (V m c main_arg0) ?_
  funext a; apply Fin.ext
  match a with
  | ⟨0, _⟩ => show win0_0.index t (0 : Fin 2) * 32 + 1 * p.val = t.val / 2 * 32 + p.val; rw [e0]; omega
  | ⟨1, _⟩ => show win0_0.index t (1 : Fin 2) * 512 + 1 * q.val = q.val; rw [e1]; omega

/-- Window 1's block at point `t`, entry `(p, q)`, is entry `(t.val % 2 * 128 + p, q)` of its array. -/
theorem blk1 (c : Dev nD) (t : Fin cfg0.N) (p : Fin 128) (q : Fin 512)
    (hp : t.val % 2 * 128 + p.val < 256) (hq : q.val < 512) :
    (iblk m c 1 t : Vec F S128x512 .f32) (ix2 p q)
      = V m c main_arg1 (ix2 (⟨t.val % 2 * 128 + p.val, hp⟩ : Fin 256) (⟨q.val, hq⟩ : Fin 512)) := by
  have e0 : win0_1.index t (0 : Fin 2) = t.val % 2 := (idx_facts t).2.2.1
  have e1 : win0_1.index t (1 : Fin 2) = 0 := (idx_facts t).2.2.2.1
  unfold iblk
  rw [View.read_apply]
  show V m c main_arg1 (((cfg0.win 1).blk t).view.emb (ix2 p q)) = _
  refine congrArg (V m c main_arg1) ?_
  funext a; apply Fin.ext
  match a with
  | ⟨0, _⟩ => show win0_1.index t (0 : Fin 2) * 128 + 1 * p.val = t.val % 2 * 128 + p.val; rw [e0]; omega
  | ⟨1, _⟩ => show win0_1.index t (1 : Fin 2) * 512 + 1 * q.val = q.val; rw [e1]; omega

/-- Window 2's block at point `t`, entry `(p, q)`, is entry `(t.val % 2 * 128 + p, q)` of its array. -/
theorem blk2 (c : Dev nD) (t : Fin cfg0.N) (p : Fin 128) (q : Fin 512)
    (hp : t.val % 2 * 128 + p.val < 256) (hq : q.val < 512) :
    (iblk m c 2 t : Vec F S128x512 .f32) (ix2 p q)
      = V m c main_arg2 (ix2 (⟨t.val % 2 * 128 + p.val, hp⟩ : Fin 256) (⟨q.val, hq⟩ : Fin 512)) := by
  have e0 : win0_2.index t (0 : Fin 2) = t.val % 2 := (idx_facts t).2.2.2.2.1
  have e1 : win0_2.index t (1 : Fin 2) = 0 := (idx_facts t).2.2.2.2.2.1
  unfold iblk
  rw [View.read_apply]
  show V m c main_arg2 (((cfg0.win 2).blk t).view.emb (ix2 p q)) = _
  refine congrArg (V m c main_arg2) ?_
  funext a; apply Fin.ext
  match a with
  | ⟨0, _⟩ => show win0_2.index t (0 : Fin 2) * 128 + 1 * p.val = t.val % 2 * 128 + p.val; rw [e0]; omega
  | ⟨1, _⟩ => show win0_2.index t (1 : Fin 2) * 512 + 1 * q.val = q.val; rw [e1]; omega

/-- Window 3's block at point `t`, entry `(p, q)`, is entry `(t.val % 2 * 128 + p, q)` of its array. -/
theorem blk3 (c : Dev nD) (t : Fin cfg0.N) (p : Fin 128) (q : Fin 512)
    (hp : t.val % 2 * 128 + p.val < 256) (hq : q.val < 512) :
    (iblk m c 3 t : Vec F S128x512 .f32) (ix2 p q)
      = V m c main_arg3 (ix2 (⟨t.val % 2 * 128 + p.val, hp⟩ : Fin 256) (⟨q.val, hq⟩ : Fin 512)) := by
  have e0 : win0_3.index t (0 : Fin 2) = t.val % 2 := (idx_facts t).2.2.2.2.2.2.1
  have e1 : win0_3.index t (1 : Fin 2) = 0 := (idx_facts t).2.2.2.2.2.2.2.1
  unfold iblk
  rw [View.read_apply]
  show V m c main_arg3 (((cfg0.win 3).blk t).view.emb (ix2 p q)) = _
  refine congrArg (V m c main_arg3) ?_
  funext a; apply Fin.ext
  match a with
  | ⟨0, _⟩ => show win0_3.index t (0 : Fin 2) * 128 + 1 * p.val = t.val % 2 * 128 + p.val; rw [e0]; omega
  | ⟨1, _⟩ => show win0_3.index t (1 : Fin 2) * 512 + 1 * q.val = q.val; rw [e1]; omega

/-- Window 4's block at point `t`, entry `(p, q)`, is entry `(t.val % 2 * 128 + p, q)` of its array. -/
theorem blk4 (c : Dev nD) (t : Fin cfg0.N) (p : Fin 128) (q : Fin 512)
    (hp : t.val % 2 * 128 + p.val < 256) (hq : q.val < 512) :
    (iblk m c 4 t : Vec F S128x512 .f32) (ix2 p q)
      = V m c main_arg4 (ix2 (⟨t.val % 2 * 128 + p.val, hp⟩ : Fin 256) (⟨q.val, hq⟩ : Fin 512)) := by
  have e0 : win0_4.index t (0 : Fin 2) = t.val % 2 := (idx_facts t).2.2.2.2.2.2.2.2.1
  have e1 : win0_4.index t (1 : Fin 2) = 0 := (idx_facts t).2.2.2.2.2.2.2.2.2.1
  unfold iblk
  rw [View.read_apply]
  show V m c main_arg4 (((cfg0.win 4).blk t).view.emb (ix2 p q)) = _
  refine congrArg (V m c main_arg4) ?_
  funext a; apply Fin.ext
  match a with
  | ⟨0, _⟩ => show win0_4.index t (0 : Fin 2) * 128 + 1 * p.val = t.val % 2 * 128 + p.val; rw [e0]; omega
  | ⟨1, _⟩ => show win0_4.index t (1 : Fin 2) * 512 + 1 * q.val = q.val; rw [e1]; omega

/-- Window 5's block at point `t`, entry `(p, q)`, is entry `(p, q)` of its array. -/
theorem blk5 (c : Dev nD) (t : Fin cfg0.N) (p : Fin 512) (q : Fin 4)
    (hp : p.val < 512) (hq : q.val < 4) :
    (iblk m c 5 t : Vec F S512x4 .f32) (ix2 p q)
      = V m c main_v14 (ix2 (⟨p.val, hp⟩ : Fin 512) (⟨q.val, hq⟩ : Fin 4)) := by
  have e0 : win0_5.index t (0 : Fin 2) = 0 := (idx_facts t).2.2.2.2.2.2.2.2.2.2.1
  have e1 : win0_5.index t (1 : Fin 2) = 0 := (idx_facts t).2.2.2.2.2.2.2.2.2.2.2.1
  unfold iblk
  rw [View.read_apply]
  show V m c main_v14 (((cfg0.win 5).blk t).view.emb (ix2 p q)) = _
  refine congrArg (V m c main_v14) ?_
  funext a; apply Fin.ext
  match a with
  | ⟨0, _⟩ => show win0_5.index t (0 : Fin 2) * 512 + 1 * p.val = p.val; rw [e0]; omega
  | ⟨1, _⟩ => show win0_5.index t (1 : Fin 2) * 4 + 1 * q.val = q.val; rw [e1]; omega

/-- Window 6's block at point `t`, entry `(p, q)`, is entry `(t.val % 2 * 128 + p, q)` of its array. -/
theorem blk6 (c : Dev nD) (t : Fin cfg0.N) (p : Fin 128) (q : Fin 4)
    (hp : t.val % 2 * 128 + p.val < 256) (hq : q.val < 4) :
    (iblk m c 6 t : Vec F S128x4 .f32) (ix2 p q)
      = V m c main_arg7 (ix2 (⟨t.val % 2 * 128 + p.val, hp⟩ : Fin 256) (⟨q.val, hq⟩ : Fin 4)) := by
  have e0 : win0_6.index t (0 : Fin 2) = t.val % 2 := (idx_facts t).2.2.2.2.2.2.2.2.2.2.2.2.1
  have e1 : win0_6.index t (1 : Fin 2) = 0 := (idx_facts t).2.2.2.2.2.2.2.2.2.2.2.2.2.1
  unfold iblk
  rw [View.read_apply]
  show V m c main_arg7 (((cfg0.win 6).blk t).view.emb (ix2 p q)) = _
  refine congrArg (V m c main_arg7) ?_
  funext a; apply Fin.ext
  match a with
  | ⟨0, _⟩ => show win0_6.index t (0 : Fin 2) * 128 + 1 * p.val = t.val % 2 * 128 + p.val; rw [e0]; omega
  | ⟨1, _⟩ => show win0_6.index t (1 : Fin 2) * 4 + 1 * q.val = q.val; rw [e1]; omega

/-- Window 7's block at point `t`, entry `(p, q)`, is entry `(t.val % 2 * 128 + p, q)` of its array. -/
theorem blk7 (c : Dev nD) (t : Fin cfg0.N) (p : Fin 128) (q : Fin 4)
    (hp : t.val % 2 * 128 + p.val < 256) (hq : q.val < 4) :
    (iblk m c 7 t : Vec F S128x4 .f32) (ix2 p q)
      = V m c main_arg8 (ix2 (⟨t.val % 2 * 128 + p.val, hp⟩ : Fin 256) (⟨q.val, hq⟩ : Fin 4)) := by
  have e0 : win0_7.index t (0 : Fin 2) = t.val % 2 := (idx_facts t).2.2.2.2.2.2.2.2.2.2.2.2.2.2.1
  have e1 : win0_7.index t (1 : Fin 2) = 0 := (idx_facts t).2.2.2.2.2.2.2.2.2.2.2.2.2.2.2.1
  unfold iblk
  rw [View.read_apply]
  show V m c main_arg8 (((cfg0.win 7).blk t).view.emb (ix2 p q)) = _
  refine congrArg (V m c main_arg8) ?_
  funext a; apply Fin.ext
  match a with
  | ⟨0, _⟩ => show win0_7.index t (0 : Fin 2) * 128 + 1 * p.val = t.val % 2 * 128 + p.val; rw [e0]; omega
  | ⟨1, _⟩ => show win0_7.index t (1 : Fin 2) * 4 + 1 * q.val = q.val; rw [e1]; omega

/-- Window 8's block at point `t`, entry `(p, q)`, is entry `(t.val % 2 * 128 + p, q)` of its array. -/
theorem blk8 (c : Dev nD) (t : Fin cfg0.N) (p : Fin 128) (q : Fin 1)
    (hp : t.val % 2 * 128 + p.val < 256) (hq : q.val < 1) :
    (iblk m c 8 t : Vec F S128x1 .f32) (ix2 p q)
      = V m c main_v15 (ix2 (⟨t.val % 2 * 128 + p.val, hp⟩ : Fin 256) (⟨q.val, hq⟩ : Fin 1)) := by
  have e0 : win0_8.index t (0 : Fin 2) = t.val % 2 := (idx_facts t).2.2.2.2.2.2.2.2.2.2.2.2.2.2.2.2.1
  have e1 : win0_8.index t (1 : Fin 2) = 0 := (idx_facts t).2.2.2.2.2.2.2.2.2.2.2.2.2.2.2.2.2.1
  unfold iblk
  rw [View.read_apply]
  show V m c main_v15 (((cfg0.win 8).blk t).view.emb (ix2 p q)) = _
  refine congrArg (V m c main_v15) ?_
  funext a; apply Fin.ext
  match a with
  | ⟨0, _⟩ => show win0_8.index t (0 : Fin 2) * 128 + 1 * p.val = t.val % 2 * 128 + p.val; rw [e0]; omega
  | ⟨1, _⟩ => show win0_8.index t (1 : Fin 2) * 1 + 1 * q.val = q.val; rw [e1]; omega

/-- Window 9's block at point `t`, entry `(p, q)`, is entry `(p, t.val % 2 * 128 + q)` of its array. -/
theorem blk9 (c : Dev nD) (t : Fin cfg0.N) (p : Fin 1) (q : Fin 128)
    (hp : p.val < 1) (hq : t.val % 2 * 128 + q.val < 256) :
    (iblk m c 9 t : Vec F S1x128 .f32) (ix2 p q)
      = V m c main_arg10 (ix2 (⟨p.val, hp⟩ : Fin 1) (⟨t.val % 2 * 128 + q.val, hq⟩ : Fin 256)) := by
  have e0 : win0_9.index t (0 : Fin 2) = 0 := (idx_facts t).2.2.2.2.2.2.2.2.2.2.2.2.2.2.2.2.2.2.1
  have e1 : win0_9.index t (1 : Fin 2) = t.val % 2 := (idx_facts t).2.2.2.2.2.2.2.2.2.2.2.2.2.2.2.2.2.2.2.1
  unfold iblk
  rw [View.read_apply]
  show V m c main_arg10 (((cfg0.win 9).blk t).view.emb (ix2 p q)) = _
  refine congrArg (V m c main_arg10) ?_
  funext a; apply Fin.ext
  match a with
  | ⟨0, _⟩ => show win0_9.index t (0 : Fin 2) * 1 + 1 * p.val = p.val; rw [e0]; omega
  | ⟨1, _⟩ => show win0_9.index t (1 : Fin 2) * 128 + 1 * q.val = t.val % 2 * 128 + q.val; rw [e1]; omega

/-- Window 10's block at point `t`, entry `(p, q)`, is entry `(p, q)` of its array. -/
theorem blk10 (c : Dev nD) (t : Fin cfg0.N) (p : Fin 1) (q : Fin 1)
    (hp : p.val < 1) (hq : q.val < 1) :
    (iblk m c 10 t : Vec F S1x1 .f32) (ix2 p q)
      = V m c main_v2 (ix2 (⟨p.val, hp⟩ : Fin 1) (⟨q.val, hq⟩ : Fin 1)) := by
  have e0 : win0_10.index t (0 : Fin 2) = 0 := (idx_facts t).2.2.2.2.2.2.2.2.2.2.2.2.2.2.2.2.2.2.2.2.1
  have e1 : win0_10.index t (1 : Fin 2) = 0 := (idx_facts t).2.2.2.2.2.2.2.2.2.2.2.2.2.2.2.2.2.2.2.2.2.1
  unfold iblk
  rw [View.read_apply]
  show V m c main_v2 (((cfg0.win 10).blk t).view.emb (ix2 p q)) = _
  refine congrArg (V m c main_v2) ?_
  funext a; apply Fin.ext
  match a with
  | ⟨0, _⟩ => show win0_10.index t (0 : Fin 2) * 1 + 1 * p.val = p.val; rw [e0]; omega
  | ⟨1, _⟩ => show win0_10.index t (1 : Fin 2) * 1 + 1 * q.val = q.val; rw [e1]; omega

/-- Window 11's block at point `t`, entry `(p, q)`, is entry `(p, q)` of its array. -/
theorem blk11 (c : Dev nD) (t : Fin cfg0.N) (p : Fin 1) (q : Fin 1)
    (hp : p.val < 1) (hq : q.val < 1) :
    (iblk m c 11 t : Vec F S1x1 .f32) (ix2 p q)
      = V m c main_v16 (ix2 (⟨p.val, hp⟩ : Fin 1) (⟨q.val, hq⟩ : Fin 1)) := by
  have e0 : win0_11.index t (0 : Fin 2) = 0 := (idx_facts t).2.2.2.2.2.2.2.2.2.2.2.2.2.2.2.2.2.2.2.2.2.2.1
  have e1 : win0_11.index t (1 : Fin 2) = 0 := (idx_facts t).2.2.2.2.2.2.2.2.2.2.2.2.2.2.2.2.2.2.2.2.2.2.2.1
  unfold iblk
  rw [View.read_apply]
  show V m c main_v16 (((cfg0.win 11).blk t).view.emb (ix2 p q)) = _
  refine congrArg (V m c main_v16) ?_
  funext a; apply Fin.ext
  match a with
  | ⟨0, _⟩ => show win0_11.index t (0 : Fin 2) * 1 + 1 * p.val = p.val; rw [e0]; omega
  | ⟨1, _⟩ => show win0_11.index t (1 : Fin 2) * 1 + 1 * q.val = q.val; rw [e1]; omega

end Cert.KernelIdeal.Blocks

end
-- ==== Proof.HostPrefix.lean ====
/-
  What the region finds in the four arrays the host wrote before it.

  Before the kernel is launched the host computes κ (the exponential of its argument clipped to [0.5, 50]) and lays it as
  a 1 × 1 array, the softmax over the four groups of the group logits and transposes it to 512 × 4, and lays the 256
  rule scalars as a column and the bias as a 1 × 1 array. κ and the softmax are the same chains of host operations in
  the reference program; they are named by the reference's own terms and never opened. Read at an index: the 1 × 1
  arrays and the column read their source at the matching index, the transposed weights at (d, g) read the softmax at (g, d).
-/
import proofs.«165279_j87531433492888_2_alg».proof.Proof.Gen.KernelIdeal.Frame
import proofs.«165279_j87531433492888_2_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx Idealize.ShloMosaic.StableHlo

namespace Cert.KernelIdeal.HostPrefix

open Cert.KernelIdeal Cert.KernelIdeal.Gen

variable {F : FTy → Type} [FloatOps F]
variable (m : (ℓ : Loc nD τ sig) → Buf (Elt F) ℓ)

/-- The rule scalars as a column. -/
theorem V_kfrac (c : Dev nD) : (V m c main_v15 : S256x1.Idx → Elt F .f32)
    = shapeCast S256x1 (m ((c : Thread nD τ).loc main_arg9)) shapeCasts_S256_S256x1 := by
  dsimp only [V, V0]
  simp only [hostOps0, hostOps0_1, hostOps0_2, List.flatten_cons, List.flatten_nil, List.append_nil, List.cons_append, List.nil_append]
  after_results
  rfl

/-- The bias as a 1 × 1 array. -/
theorem V_bias (c : Dev nD) : (V m c main_v16 : S1x1.Idx → Elt F .f32)
    = shapeCast S1x1 (m ((c : Thread nD τ).loc main_arg11)) shapeCasts_S1_S1x1 := by
  dsimp only [V, V0]
  simp only [hostOps0, hostOps0_1, hostOps0_2, List.flatten_cons, List.flatten_nil, List.append_nil, List.cons_append, List.nil_append]
  after_results
  rfl

/-- κ as a 1 × 1 array: the reference's own clipped exponential of the same argument. -/
theorem V_kappa (c : Dev nD) : (V m c main_v2 : S1x1.Idx → Elt F .f32)
    = shapeCast S1x1 (Cert.ReferenceIdeal.Read.val_main_v1 (F := F) (m ((c : Thread nD τ).loc main_arg5))) shapeCasts_S_S1x1 := by
  dsimp only [V, V0]
  simp only [hostOps0, hostOps0_1, hostOps0_2, List.flatten_cons, List.flatten_nil, List.append_nil, List.cons_append, List.nil_append]
  after_results
  rfl

/-- The group weights, transposed: the reference's own softmax of the same argument. -/
theorem V_weights (c : Dev nD) : (V m c main_v14 : S512x4.Idx → Elt F .f32)
    = transpose S512x4 [1, 0] (Cert.ReferenceIdeal.Read.val_main_v44 (F := F) (m ((c : Thread nD τ).loc main_arg6))) transposes_S4x512_S512x4_1_0 := by
  dsimp only [V, V0]
  simp only [hostOps0, hostOps0_1, hostOps0_2, List.flatten_cons, List.flatten_nil, List.append_nil, List.cons_append, List.nil_append]
  after_results
  rfl

end Cert.KernelIdeal.HostPrefix

end
-- ==== Proof.BodyEvid.lean ====
/-
  The first half of the body's arithmetic: the evidence matrix.

  From a block of 32 sample rows x, 128 rule rows θ, iq, es, mk (512 features each), the scalar κ and the
  512 × 4 matrix A of group weights, the body forms the 32 × 128 × 512 array

    s (p, q, d) = (σ(mk (q, d)) · tanh(es (q, d))) · (2 · σ((κ · tanh(iq (q, d))) · (x (p, d) − θ (q, d))) − 1),

  lays it out as 4096 rows of 512 (row p · 128 + q), and multiplies by A into a zero accumulator. Read at
  row (p, q) and group g the product is ∑ d, s (p, q, d) · A (d, g): the evidence of rule q for group g on
  sample p, as the specification defines it. Every step below reads one operation at one index: a unit axis
  added, a copy along an axis, the re-layout of the rows, the product as a sum over the shared coordinate;
  the pointwise operations read through by definition, and narrowing to 16 bits is the identity on the
  extended reals. No law of arithmetic is used: the operands stand in the order the body has them.
-/
import proofs.«165279_j87531433492888_2_alg».proof.Proof.Spec
import proofs.«165279_j87531433492888_2_alg».proof.Proof.Gen.KernelIdeal.Skeleton
import Idealize.ShloMosaic.Lib.ValueIdx
import Idealize.ShloMosaic.Lib.Pipeline.Value
import Idealize.ShloMosaic.PureOps.Ideal.Laws

noncomputable section
namespace Cert.KernelIdeal.BodyValue
open Cert.KernelIdeal Cert.KernelIdeal.Gen Idealize.ShloMosaic Idealize.ShloMosaic.ValueIdx

variable {α : Type}

/-! ## The layout operations at an index -/

/-- A 32 × 512 array given a unit middle axis reads, at (p, u, d), the operand at (p, d). -/
theorem cast_mid_unit (x : S32x512.Idx → α) (h : S32x512.ShapeCasts S32x1x512) (p : Fin 32) (u : Fin 1) (d : Fin 512) :
    shapeCast S32x1x512 x h (ix3 p u d) = x (ix2 p d) :=
  shapeCast_apply x h _ _ (by
    have hu : u.val = 0 := by omega
    rw [Shape.rowMajor_val_three, Shape.rowMajor_val_two]
    show p.val * 512 + d.val = (p.val * 1 + u.val) * 512 + d.val
    rw [hu, Nat.mul_one, Nat.add_zero])

/-- A 128 × 512 array given a unit leading axis reads, at (u, q, d), the operand at (q, d). -/
theorem cast_lead_unit (x : S128x512.Idx → α) (h : S128x512.ShapeCasts S1x128x512) (u : Fin 1) (q : Fin 128) (d : Fin 512) :
    shapeCast S1x128x512 x h (ix3 u q d) = x (ix2 q d) :=
  shapeCast_apply x h _ _ (by
    have hu : u.val = 0 := by omega
    rw [Shape.rowMajor_val_three, Shape.rowMajor_val_two]
    show q.val * 512 + d.val = (u.val * 128 + q.val) * 512 + d.val
    rw [hu, Nat.zero_mul, Nat.zero_add])

/-- One copy per rule of a 32 × 1 × 512 array: at (p, q, d) it reads the operand at (p, 0, d). -/
theorem bcast_over_rules (x : S32x1x512.Idx → α) (h : S32x1x512.Broadcasts S32x128x512) (p : Fin 32) (q : Fin 128) (d : Fin 512) :
    broadcastTo S32x128x512 x h (ix3 p q d) = x (ix3 p (0 : Fin 1) d) := by
  refine broadcastTo_apply x h (ix3 p q d) (ix3 p (0 : Fin 1) d) fun ax => ?_
  match ax with
  | ⟨0, _⟩ =>
    show p.val = if (32 : Nat) = 1 then 0 else p.val
    rw [if_neg (by decide)]
  | ⟨1, _⟩ =>
    show 0 = if (1 : Nat) = 1 then 0 else q.val
    rw [if_pos rfl]
  | ⟨2, _⟩ =>
    show d.val = if (512 : Nat) = 1 then 0 else d.val
    rw [if_neg (by decide)]

/-- One copy per sample of a 1 × 128 × 512 array: at (p, q, d) it reads the operand at (0, q, d). -/
theorem bcast_over_samples (x : S1x128x512.Idx → α) (h : S1x128x512.Broadcasts S32x128x512) (p : Fin 32) (q : Fin 128) (d : Fin 512) :
    broadcastTo S32x128x512 x h (ix3 p q d) = x (ix3 (0 : Fin 1) q d) := by
  refine broadcastTo_apply x h (ix3 p q d) (ix3 (0 : Fin 1) q d) fun ax => ?_
  match ax with
  | ⟨0, _⟩ =>
    show 0 = if (1 : Nat) = 1 then 0 else p.val
    rw [if_pos rfl]
  | ⟨1, _⟩ =>
    show q.val = if (128 : Nat) = 1 then 0 else q.val
    rw [if_neg (by decide)]
  | ⟨2, _⟩ =>
    show d.val = if (512 : Nat) = 1 then 0 else d.val
    rw [if_neg (by decide)]

/-- The 32 × 128 × 512 array laid out as 4096 rows of 512: row p·128 + q at d is the array at (p, q, d). -/
theorem flatten_rows (x : S32x128x512.Idx → α) (h : S32x128x512.ShapeCasts S4096x512) (p : Fin 32) (q : Fin 128) (d : Fin 512) :
    shapeCast S4096x512 x h (ix2 (Cert.RuleScore.flat p q) d) = x (ix3 p q d) :=
  shapeCast_apply x h _ _ (by
    rw [Shape.rowMajor_val_three, Shape.rowMajor_val_two]
    rfl)

/-! ## The product at an index -/

/-- The left operand's row coordinate in the product is the output's row … -/
theorem product_lhs_row (i : S4096x4.Idx) (k : dot_S4096x512_S512x4_S4096x4_1_0_0_1_n_n.contr.Idx) :
    (dot_S4096x512_S512x4_S4096x4_1_0_0_1_n_n.lhsIdx i k 0).val = (i 0).val := by
  unfold DotDims.lhsIdx
  rw [dif_neg (show ¬(0 : Fin S4096x512.rank) ∈ dot_S4096x512_S512x4_S4096x4_1_0_0_1_n_n.lhsBatch by decide),
    dif_pos (show (0 : Fin S4096x512.rank) ∈ dot_S4096x512_S512x4_S4096x4_1_0_0_1_n_n.lhsNonContracting by decide)]
  rfl
/-- … its column coordinate is the summed one … -/
theorem product_lhs_col (i : S4096x4.Idx) (k : dot_S4096x512_S512x4_S4096x4_1_0_0_1_n_n.contr.Idx) :
    (dot_S4096x512_S512x4_S4096x4_1_0_0_1_n_n.lhsIdx i k 1).val = (k ⟨0, by decide⟩).val :=
  dot_S4096x512_S512x4_S4096x4_1_0_0_1_n_n.lhsIdx_val_of_single rfl i k
/-- … the right operand's row coordinate is the summed one … -/
theorem product_rhs_row (i : S4096x4.Idx) (k : dot_S4096x512_S512x4_S4096x4_1_0_0_1_n_n.contr.Idx) :
    (dot_S4096x512_S512x4_S4096x4_1_0_0_1_n_n.rhsIdx i k 0).val = (k ⟨0, by decide⟩).val :=
  dot_S4096x512_S512x4_S4096x4_1_0_0_1_n_n.rhsIdx_val_of_single rfl i k
/-- … and its column coordinate is the output's column. -/
theorem product_rhs_col (i : S4096x4.Idx) (k : dot_S4096x512_S512x4_S4096x4_1_0_0_1_n_n.contr.Idx) :
    (dot_S4096x512_S512x4_S4096x4_1_0_0_1_n_n.rhsIdx i k 1).val = (i 1).val := by
  unfold DotDims.rhsIdx
  rw [dif_neg (show ¬(1 : Fin S512x4.rank) ∈ dot_S4096x512_S512x4_S4096x4_1_0_0_1_n_n.rhsBatch by decide),
    dif_pos (show (1 : Fin S512x4.rank) ∈ dot_S4096x512_S512x4_S4096x4_1_0_0_1_n_n.rhsNonContracting by decide)]
  rfl

/-- The 4096 × 512 by 512 × 4 product into a zero accumulator, at (r, g): the sum over the 512 shared coordinates. -/
theorem product_apply (L : FVec Ideal S4096x512 .bf16) (R : FVec Ideal S512x4 .bf16) (r : Fin 4096) (g : Fin 4) :
    matmul dot_S4096x512_S512x4_S4096x4_1_0_0_1_n_n none L R (constant (F := Ideal) S4096x4 .f32 0x00000000#32) (ix2 r g)
      = ∑ d : Fin 512, L (ix2 r d) * R (ix2 d g) := by
  refine (Ideal.matmul_constant_zero_apply dot_S4096x512_S512x4_S4096x4_1_0_0_1_n_n none L R (ix2 r g)).trans ?_
  rw [← Equiv.sum_comp (contrEquiv1 dot_S4096x512_S512x4_S4096x4_1_0_0_1_n_n 512 rfl rfl).symm]
  refine Finset.sum_congr rfl fun k _ => ?_
  have hk := contrEquiv1_symm_val dot_S4096x512_S512x4_S4096x4_1_0_0_1_n_n 512 rfl rfl k
  have el : dot_S4096x512_S512x4_S4096x4_1_0_0_1_n_n.lhsIdx (ix2 r g)
      ((contrEquiv1 dot_S4096x512_S512x4_S4096x4_1_0_0_1_n_n 512 rfl rfl).symm k) = ix2 r k := funext fun a => Fin.ext (by
    match a with
    | ⟨0, _⟩ => exact product_lhs_row _ _
    | ⟨1, _⟩ => exact (product_lhs_col _ _).trans hk)
  have er : dot_S4096x512_S512x4_S4096x4_1_0_0_1_n_n.rhsIdx (ix2 r g)
      ((contrEquiv1 dot_S4096x512_S512x4_S4096x4_1_0_0_1_n_n 512 rfl rfl).symm k) = ix2 k g := funext fun a => Fin.ext (by
    match a with
    | ⟨0, _⟩ => exact (product_rhs_row _ _).trans hk
    | ⟨1, _⟩ => exact product_rhs_col _ _)
  rw [el, er]

/-! ## The pointwise array at an index -/

/-- The 1 × 1 block read at position (0, 0) is its one entry. -/
theorem scalar_read (v : FVec Ideal S1x1 .f32) :
    extractAt ![0, 0] v inpos_S1x1_p0_0 = v (ix2 (0 : Fin 1) (0 : Fin 1)) := by
  unfold extractAt
  exact congrArg v (funext fun a => by
    match a with
    | ⟨0, _⟩ => rfl
    | ⟨1, _⟩ => rfl)

/-- x − θ over the 32 × 128 × 512 array: at (p, q, d), sample p's feature d less rule q's threshold at d. -/
theorem diff_apply (x : FVec Ideal S32x512 .f32) (th : FVec Ideal S128x512 .f32) (p : Fin 32) (q : Fin 128) (d : Fin 512) :
    subf (broadcastTo S32x128x512 (shapeCast S32x1x512 x shapeCasts_S32x512_S32x1x512) broadcasts_S32x1x512_S32x128x512)
        (broadcastTo S32x128x512 (shapeCast S1x128x512 th shapeCasts_S128x512_S1x128x512) broadcasts_S1x128x512_S32x128x512)
        (ix3 p q d)
      = x (ix2 p d) - th (ix2 q d) :=
  (subf_apply _ _ _).trans (congrArg₂ (fun a b : EReal => a - b)
    ((bcast_over_rules _ _ p q d).trans (cast_mid_unit _ _ p 0 d))
    ((bcast_over_samples _ _ p q d).trans (cast_lead_unit _ _ 0 q d)))

/-- κ · tanh(iq) over the array: at (p, q, d) it is κ times the tanh of rule q's row at d. -/
theorem slope_apply (κ : EReal) (iq : FVec Ideal S128x512 .f32) (p : Fin 32) (q : Fin 128) (d : Fin 512) :
    broadcastTo S32x128x512
        (mulf (broadcast S1x128x512 κ) (shapeCast S1x128x512 (tanh iq) shapeCasts_S128x512_S1x128x512) : FVec Ideal S1x128x512 .f32)
        broadcasts_S1x128x512_S32x128x512 (ix3 p q d)
      = κ * Ideal.tanh (iq (ix2 q d)) :=
  (bcast_over_samples _ _ p q d).trans ((mulf_apply _ _ _).trans
    (congrArg (fun b : EReal => κ * b) (cast_lead_unit _ _ 0 q d)))

/-- σ(mk) · tanh(es) over the array: at (p, q, d) it is rule q's weight at d. -/
theorem weight_apply (mk es : FVec Ideal S128x512 .f32) (p : Fin 32) (q : Fin 128) (d : Fin 512) :
    broadcastTo S32x128x512
        (shapeCast S1x128x512 (mulf (logistic mk) (tanh es) : FVec Ideal S128x512 .f32) shapeCasts_S128x512_S1x128x512)
        broadcasts_S1x128x512_S32x128x512 (ix3 p q d)
      = Ideal.logistic (mk (ix2 q d)) * Ideal.tanh (es (ix2 q d)) :=
  (bcast_over_samples _ _ p q d).trans (cast_lead_unit _ _ 0 q d)

/-! ## The evidence -/

/-- The product's entry at row (p, q) and group g is that sample's and rule's evidence for the group. -/
theorem pay3_apply (v3 : Vec Ideal S32x512 .f32) (v4 : Vec Ideal S128x512 .f32) (v5 : Vec Ideal S1x1 .f32)
    (v7 v20 v22 : Vec Ideal S128x512 .f32) (v32 : Vec Ideal S512x4 .f32) (p : Fin 32) (q : Fin 128) (g : Fin 4) :
    k0_pay3 (F := Ideal) v3 v4 v5 v7 v20 v22 v32 (ix2 (Cert.RuleScore.flat p q) g)
      = Cert.RuleScore.evid (v5 (ix2 (0 : Fin 1) (0 : Fin 1))) (fun d => v32 (ix2 d g)) (fun d => v3 (ix2 p d)) (fun d => v4 (ix2 q d))
          (fun d => v7 (ix2 q d)) (fun d => v22 (ix2 q d)) (fun d => v20 (ix2 q d)) := by
  unfold k0_pay3
  refine (product_apply _ _ (Cert.RuleScore.flat p q) g).trans ?_
  unfold Cert.RuleScore.evid
  refine Finset.sum_congr rfl fun d _ => ?_
  refine congrArg₂ (fun a b : EReal => a * b) ?_ ?_
  · refine (truncf_apply (φ := .f32) (ψ := .bf16) _ bitsLt_bf16_f32 (ix2 (Cert.RuleScore.flat p q) d)).trans ?_
    refine (flatten_rows _ _ p q d).trans ?_
    refine (mulf_apply _ _ _).trans ?_
    unfold Cert.RuleScore.sym
    refine congrArg₂ (fun a b : EReal => a * b) (weight_apply v20 v22 p q d) ?_
    refine (subf_apply _ _ _).trans ?_
    refine congrArg (fun a : EReal => a - Ideal.ofBits .f32 0x3F800000#32) ?_
    refine (mulf_apply _ _ _).trans ?_
    refine congrArg (fun a : EReal => Ideal.ofBits .f32 0x40000000#32 * a) ?_
    refine congrArg Ideal.logistic ?_
    refine (mulf_apply _ _ _).trans ?_
    refine congrArg₂ (fun a b : EReal => a * b) ?_ (diff_apply v3 v4 p q d)
    rw [scalar_read]
    exact slope_apply _ v7 p q d
  · exact (truncf_apply (φ := .f32) (ψ := .bf16) _ bitsLt_bf16_f32 (ix2 d g)).trans (congrFun (shapeCast_self v32 shapeCasts_S512x4_S512x4) (ix2 d g))

end Cert.KernelIdeal.BodyValue
end
-- ==== Proof.BodyGate.lean ====
/-
  The second half of the body's arithmetic, read one element at a time.

  The body holds, for a block of 32 samples and 128 rules, the evidence matrix (one row per (sample, rule) pair,
  sample-major, one column per group). From it, for sample p and rule q:

    score p q = ∑ g, σ(6 · (evidence (p, q) g − threshold q g)) · σ(mask q g)
    quota q   = σ(k q) · ((∑ g, σ(mask q g)) + ε)
    gate p q  = σ(8 · (score p q − quota q))

  and the accumulator's row p receives ∑ q, gate p q · w q. Every reshape, repetition along an axis and transposition
  only renames indices, and every sum along an axis is, over the extended reals, a plain finite sum; so the value stored
  at row p is the accumulator there plus the sum over the 128 rules of the specification's gate times the head weight.
  The operand orders of the products and differences are the specification's own, so nothing is commuted or regrouped.
-/
import proofs.«165279_j87531433492888_2_alg».proof.Proof.Spec
import proofs.«165279_j87531433492888_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.BodyValue
open Cert.KernelIdeal Cert.KernelIdeal.Gen Idealize.ShloMosaic Idealize.ShloMosaic.ValueIdx

/-! ## The layout operations of the body, each read at an index given by its coordinates -/

/-- The evidence matrix has one row per (sample, rule) pair, sample-major; viewed as a 32 × 128 × 4 block, entry
    (p, q, g) is the matrix's entry at row p·128 + q, column g: the same row-major position. -/
theorem rows_as_block_apply (x : FVec Ideal S4096x4 .f32) (p : Fin 32) (q : Fin 128) (g : Fin 4) :
    shapeCast S32x128x4 x shapeCasts_S4096x4_S32x128x4 (ix3 p q g) = x (ix2 (Cert.RuleScore.flat p q) g) :=
  shapeCast_apply x _ _ _ (by
    rw [Shape.rowMajor_val_two, Shape.rowMajor_val_three]
    show (p.val * 128 + q.val) * 4 + g.val = (p.val * 128 + q.val) * 4 + g.val
    rfl)

/-- A per-rule 128 × 4 table given a leading unit axis reads the table itself. -/
theorem table_unit_apply (x : FVec Ideal S128x4 .f32) (u : Fin 1) (q : Fin 128) (g : Fin 4) :
    shapeCast S1x128x4 x shapeCasts_S128x4_S1x128x4 (ix3 u q g) = x (ix2 q g) :=
  shapeCast_ab_1ab_apply x _ u q g

/-- That table repeated for each of the 32 samples reads, at (p, q, g), the table at (q, g): the sample does not matter. -/
theorem table_all_samples_apply (x : FVec Ideal S1x128x4 .f32) (p : Fin 32) (q : Fin 128) (g : Fin 4) :
    broadcastTo S32x128x4 x broadcasts_S1x128x4_S32x128x4 (ix3 p q g) = x (ix3 (0 : Fin 1) q g) := by
  refine broadcastTo_apply x _ (ix3 p q g) (ix3 (0 : Fin 1) q g) fun ax => ?_
  match ax with
  | ⟨0, _⟩ => rfl
  | ⟨1, _⟩ => rfl
  | ⟨2, _⟩ => rfl

/-- A length-128 vector written as a column reads, at (q, 0), the vector at q. -/
theorem column_of_rules_apply (x : FVec Ideal S128 .f32) (q : Fin 128) :
    shapeCast S128x1 x shapeCasts_S128_S128x1 (ix2 q (0 : Fin 1)) = x (ix1 q) :=
  shapeCast_apply x _ _ _ (by
    rw [Shape.rowMajor_val_one, Shape.rowMajor_val_two]
    show q.val = q.val * 1 + 0
    omega)

/-- A length-32 vector written as a column reads, at (p, 0), the vector at p. -/
theorem column_of_samples_apply (x : FVec Ideal S32 .f32) (p : Fin 32) :
    shapeCast S32x1 x shapeCasts_S32_S32x1 (ix2 p (0 : Fin 1)) = x (ix1 p) :=
  shapeCast_apply x _ _ _ (by
    rw [Shape.rowMajor_val_one, Shape.rowMajor_val_two]
    show p.val = p.val * 1 + 0
    omega)

/-- The column of per-rule quotas laid as a row reads, at (0, q), the column at (q, 0). -/
theorem row_of_column_apply (x : FVec Ideal S128x1 .f32) (q : Fin 128) :
    transpose S1x128 [1, 0] x transposes_S128x1_p1_0_S1x128 (ix2 (0 : Fin 1) q) = x (ix2 q (0 : Fin 1)) :=
  transpose_ix2_apply x _ (0 : Fin 1) q

/-- A row over the rules repeated for each of the 32 samples reads, at (p, q), the row at q. -/
theorem row_all_samples_apply (x : FVec Ideal S1x128 .f32) (p : Fin 32) (q : Fin 128) :
    broadcastTo S32x128 x broadcasts_S1x128_S32x128 (ix2 p q) = x (ix2 (0 : Fin 1) q) :=
  broadcastTo_1b_ab_apply x _ p q

/-! ## The three sums along one axis: at the extended reals each is a plain finite sum over that axis -/

/-- Summing a 32 × 128 × 4 block over its last axis: at (p, q), the sum over the four groups. -/
theorem sum_over_groups_apply (src : FVec Ideal S32x128x4 .f32) (p : Fin 32) (q : Fin 128) :
    multiReduction .add [2] S32x128 src 0x00000000#32 reduces_S32x128x4_S32x128 (.inl rfl) rfl (ix2 p q)
      = ∑ g : Fin 4, src (ix3 p q g) :=
  (Ideal.multiReduction_add_single src 0x00000000#32 reduces_S32x128x4_S32x128 (.inl rfl) rfl (ix2 p q)).trans
    (Finset.sum_congr rfl fun g _ => congrArg src (funext fun a => Fin.ext (by
      match a with
      | ⟨0, _⟩ => rfl
      | ⟨1, _⟩ => rfl
      | ⟨2, _⟩ => rfl)))

/-- Summing a 128 × 4 table over its last axis: at q, the sum over the four groups. -/
theorem sum_table_groups_apply (src : FVec Ideal S128x4 .f32) (q : Fin 128) :
    multiReduction .add [1] S128 src 0x00000000#32 reduces_S128x4_S128 (.inl rfl) rfl (ix1 q)
      = ∑ g : Fin 4, src (ix2 q g) :=
  (Ideal.multiReduction_add_single src 0x00000000#32 reduces_S128x4_S128 (.inl rfl) rfl (ix1 q)).trans
    (Finset.sum_congr rfl fun g _ => congrArg src (funext fun a => Fin.ext (by
      match a with
      | ⟨0, _⟩ => rfl
      | ⟨1, _⟩ => rfl)))

/-- Summing a 32 × 128 block over its last axis: at p, the sum over the 128 rules. -/
theorem sum_over_rules_apply (src : FVec Ideal S32x128 .f32) (p : Fin 32) :
    multiReduction .add [1] S32 src 0x00000000#32 reduces_S32x128_S32 (.inl rfl) rfl (ix1 p)
      = ∑ q : Fin 128, src (ix2 p q) :=
  (Ideal.multiReduction_add_single src 0x00000000#32 reduces_S32x128_S32 (.inl rfl) rfl (ix1 p)).trans
    (Finset.sum_congr rfl fun q _ => congrArg src (funext fun a => Fin.ext (by
      match a with
      | ⟨0, _⟩ => rfl
      | ⟨1, _⟩ => rfl)))

/-! ## The two per-(sample, rule) quantities the gate compares -/

/-- The soft count of groups over threshold, for sample p and rule q: the sum over the four groups of
    σ(6 · (evidence − threshold)) times the group's soft mask. -/
theorem score_apply (E : FVec Ideal S4096x4 .f32) (tg gm : FVec Ideal S128x4 .f32) (p : Fin 32) (q : Fin 128) :
    multiReduction .add [2] S32x128
        (mulf
          (logistic (mulf (broadcast S32x128x4 (Scalar.ofBits .f32 0x40C00000#32))
            (subf (shapeCast S32x128x4 E shapeCasts_S4096x4_S32x128x4)
              (broadcastTo S32x128x4 (shapeCast S1x128x4 tg shapeCasts_S128x4_S1x128x4) broadcasts_S1x128x4_S32x128x4))))
          (broadcastTo S32x128x4 (shapeCast S1x128x4 gm shapeCasts_S128x4_S1x128x4) broadcasts_S1x128x4_S32x128x4))
        0x00000000#32 reduces_S32x128x4_S32x128 (.inl rfl) rfl (ix2 p q)
      = ∑ g : Fin 4,
          Ideal.logistic (Ideal.ofBits .f32 0x40C00000#32 * (E (ix2 (Cert.RuleScore.flat p q) g) - tg (ix2 q g)))
            * gm (ix2 q g) :=
  (sum_over_groups_apply _ p q).trans (Finset.sum_congr rfl fun g _ =>
    congrArg₂ (· * ·)
      (congrArg Ideal.logistic (congrArg (Ideal.ofBits .f32 0x40C00000#32 * ·)
        (congrArg₂ (· - ·) (rows_as_block_apply E p q g)
          ((table_all_samples_apply _ p q g).trans (table_unit_apply tg (0 : Fin 1) q g)))))
      ((table_all_samples_apply _ p q g).trans (table_unit_apply gm (0 : Fin 1) q g)))

/-- The soft quota of rule q, the same for every sample p: σ(k) times (the sum of the four soft masks plus ε). -/
theorem quota_apply (gm : FVec Ideal S128x4 .f32) (kf : FVec Ideal S128x1 .f32) (p : Fin 32) (q : Fin 128) :
    broadcastTo S32x128
        (transpose S1x128 [1, 0]
          (mulf (logistic (shapeCast S128x1 kf shapeCasts_S128x1_S128x1))
            (addf
              (shapeCast S128x1 (multiReduction .add [1] S128 gm 0x00000000#32 reduces_S128x4_S128 (.inl rfl) rfl)
                shapeCasts_S128_S128x1)
              (broadcast S128x1 (Scalar.ofBits .f32 0x358637BD#32))))
          transposes_S128x1_p1_0_S1x128)
        broadcasts_S1x128_S32x128 (ix2 p q)
      = Ideal.logistic (kf (ix2 q (0 : Fin 1)))
          * ((∑ g : Fin 4, gm (ix2 q g)) + Ideal.ofBits .f32 0x358637BD#32) :=
  (row_all_samples_apply _ p q).trans ((row_of_column_apply _ q).trans
    (congrArg₂ (· * ·)
      (congrArg Ideal.logistic (congrFun (shapeCast_self kf shapeCasts_S128x1_S128x1) (ix2 q (0 : Fin 1))))
      (congrArg (· + Ideal.ofBits .f32 0x358637BD#32)
        ((column_of_rules_apply _ q).trans (sum_table_groups_apply gm q)))))

/-! ## The body's stored value -/

/-- What the body stores back into its accumulator, at sample row p: the accumulator there plus the sum over the
    block's 128 rules of gate times head weight. -/
theorem pay4_apply (v37 : FVec Ideal S4096x4 .f32) (v39 v46 : Vec Ideal S128x4 .f32) (v56 : Vec Ideal S128x1 .f32)
    (v66 : Vec Ideal S1x128 .f32) (v71 : Vec Ideal S32x1 .f32) (p : Fin 32) :
    k0_pay4 (F := Ideal) v37 v39 v46 v56 v66 v71 (ix2 p (0 : Fin 1))
      = v71 (ix2 p (0 : Fin 1))
        + ∑ q : Fin 128,
            Cert.RuleScore.gateOf (fun g => v37 (ix2 (Cert.RuleScore.flat p q) g)) (fun g => v39 (ix2 q g)) (fun g => v46 (ix2 q g))
                (v56 (ix2 q (0 : Fin 1)))
              * v66 (ix2 (0 : Fin 1) q) := by
  unfold k0_pay4
  -- the closing cast is the identity; what is left is the accumulator plus the column of per-sample sums
  refine (congrFun (shapeCast_self _ shapeCasts_S32x1_S32x1) (ix2 p (0 : Fin 1))).trans ?_
  refine congrArg (v71 (ix2 p (0 : Fin 1)) + ·) ?_
  -- the column at (p, 0) is the sum over the rules q of (gate × head weight) at (p, q)
  refine (column_of_samples_apply _ p).trans ((sum_over_rules_apply _ p).trans (Finset.sum_congr rfl fun q _ => ?_))
  refine congrArg₂ (· * ·) ?_ (row_all_samples_apply v66 p q)
  -- the gate: σ(8 · (score − quota))
  unfold Cert.RuleScore.gateOf
  refine congrArg Ideal.logistic (congrArg (Ideal.ofBits .f32 0x41000000#32 * ·) (congrArg₂ (· - ·) ?_ ?_))
  · exact score_apply v37 v39 (logistic v46) p q
  · exact quota_apply (logistic v46) v56 p q

end Cert.KernelIdeal.BodyValue
end
-- ==== Proof.TileValue.lean ====
/-
  One run of the body's arithmetic on a tile, as a value.

  The value the body stores back into its accumulator is the second half of the arithmetic applied to the first
  half's evidence matrix. Reading the first inside the second: at sample row p the stored value is the accumulator
  there plus the sum over the tile's 128 rules of the rule's gate on that sample times its head weight, the gate
  being the specification's, from the rows of the staged blocks. The other two stored values are read here too: the
  cleared accumulator is zero everywhere, and the output block is accumulator plus bias.
-/
import proofs.«165279_j87531433492888_2_alg».proof.Proof.BodyEvid
import proofs.«165279_j87531433492888_2_alg».proof.Proof.BodyGate

noncomputable section
namespace Cert.KernelIdeal.BodyValue
open Cert.KernelIdeal Cert.KernelIdeal.Gen Idealize.ShloMosaic Idealize.ShloMosaic.ValueIdx

/-- The cleared accumulator holds the extended real zero at every row. -/
theorem pay2_apply (p : Fin 32) : k0_pay2 (F := Ideal) (ix2 p (0 : Fin 1)) = 0 := by
  unfold k0_pay2
  refine (congrFun (shapeCast_self _ shapeCasts_S32x1_S32x1) (ix2 p (0 : Fin 1))).trans ?_
  exact Ideal.ofBits_zero_f32

/-- The output block at row p: the accumulator there plus the bias. -/
theorem pay1_apply (v79 : Vec Ideal S32x1 .f32) (v80 : Vec Ideal S1x1 .f32) (p : Fin 32) :
    k0_pay1 (F := Ideal) v79 v80 (ix2 p (0 : Fin 1)) = v79 (ix2 p (0 : Fin 1)) + v80 (ix2 (0 : Fin 1) (0 : Fin 1)) := by
  unfold k0_pay1
  refine (addf_apply _ _ _).trans ?_
  exact congrArg (v79 (ix2 p (0 : Fin 1)) + ·) (scalar_read v80)

/-- The stored accumulator at row p, from the staged blocks: what it held plus the tile's sum of gate times head weight. -/
theorem tile_apply (x0 : Vec Ideal S32x512 .f32) (x1 x2 x3 x4 : Vec Ideal S128x512 .f32) (x5 : Vec Ideal S512x4 .f32)
    (x6 x7 : Vec Ideal S128x4 .f32) (x8 : Vec Ideal S128x1 .f32) (x9 : Vec Ideal S1x128 .f32) (x10 : Vec Ideal S1x1 .f32)
    (xs : Vec Ideal S32x1 .f32) (p : Fin 32) :
    k0_pay4 (F := Ideal) (k0_pay3 (F := Ideal) x0 x1 x10 x2 x4 x3 x5) x6 x7 x8 x9 xs (ix2 p (0 : Fin 1))
      = xs (ix2 p (0 : Fin 1))
        + ∑ q : Fin 128,
            Cert.RuleScore.gate (x10 (ix2 (0 : Fin 1) (0 : Fin 1))) (fun g d => x5 (ix2 d g))
                (fun d => x0 (ix2 p d)) (fun d => x1 (ix2 q d)) (fun d => x2 (ix2 q d)) (fun d => x3 (ix2 q d)) (fun d => x4 (ix2 q d))
                (fun g => x6 (ix2 q g)) (fun g => x7 (ix2 q g)) (x8 (ix2 q (0 : Fin 1)))
              * x9 (ix2 (0 : Fin 1) q) := by
  refine (pay4_apply _ x6 x7 x8 x9 xs p).trans ?_
  refine congrArg (xs (ix2 p (0 : Fin 1)) + ·) (Finset.sum_congr rfl fun q _ => ?_)
  refine congrArg (· * x9 (ix2 (0 : Fin 1) q)) ?_
  unfold Cert.RuleScore.gate
  exact congrArg (fun e : Fin 4 → EReal => Cert.RuleScore.gateOf e (fun g => x6 (ix2 q g)) (fun g => x7 (ix2 q g)) (x8 (ix2 q (0 : Fin 1))))
    (funext fun g => pay3_apply x0 x1 x10 x2 x4 x3 x5 p q g)

end Cert.KernelIdeal.BodyValue
end
-- ==== Proof.KernelRun.lean ====
/-
  The kernel's run, read: what its result array holds.

  The grid's point `t` works on sample tile `t / 2` and rule tile `t % 2`. At an even point the body clears its
  accumulator and adds the first rule tile's partial head sums; at the following odd point it adds the second tile's and
  writes accumulator plus bias to the output block, which is written back to rows `32 · (t / 2) …` of the 1024 × 1 output
  array. So row b of that array ends at ((0 + S₀ b) + S₁ b) + β, with Sₖ b the sum over rule tile k of gate times head
  weight; the two tiles' sums make the sum over all 256 rules, and the host's final reshape reads row b at index b.
-/
import proofs.«165279_j87531433492888_2_alg».proof.Proof.Pieces
import proofs.«165279_j87531433492888_2_alg».proof.Proof.Blocks
import proofs.«165279_j87531433492888_2_alg».proof.Proof.HostPrefix
import proofs.«165279_j87531433492888_2_alg».proof.Proof.TileValue
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen

variable (m : (ℓ : Loc nD τ sig) → Buf (Elt Ideal) ℓ) (ρ : Dev nD → PrngReg)

/-! ## The gate and the result, from the argument arrays -/

/-- κ on core `c`: the clipped exponential of the scalar argument, as the reference's own term. -/
abbrev kap (c : Dev nD) : EReal :=
  Cert.ReferenceIdeal.Read.val_main_v1 (F := Ideal) (m ((c : Thread nD τ).loc main_arg5)) ix0

/-- The groups' weights on core `c`: the softmax of the group logits, as the reference's own term, at (g, d). -/
abbrev wts (c : Dev nD) : Fin 4 → Fin 512 → EReal := fun g d =>
  Cert.ReferenceIdeal.Read.val_main_v44 (F := Ideal) (m ((c : Thread nD τ).loc main_arg6)) (ix2 g d)

/-- Rule `r`'s gate on sample `b`. -/
def gateAt (c : Dev nD) (b : Fin 1024) (r : Fin 256) : EReal :=
  Cert.RuleScore.gate (kap m c) (wts m c)
    (fun d => (m ((c : Thread nD τ).loc main_arg0)) (ix2 b d)) (fun d => (m ((c : Thread nD τ).loc main_arg1)) (ix2 r d)) (fun d => (m ((c : Thread nD τ).loc main_arg2)) (ix2 r d))
    (fun d => (m ((c : Thread nD τ).loc main_arg3)) (ix2 r d)) (fun d => (m ((c : Thread nD τ).loc main_arg4)) (ix2 r d))
    (fun g => (m ((c : Thread nD τ).loc main_arg7)) (ix2 r g)) (fun g => (m ((c : Thread nD τ).loc main_arg8)) (ix2 r g)) ((m ((c : Thread nD τ).loc main_arg9)) (ix1 r))

/-- The head sum of rule tile `k` for sample `b`. -/
def tileSum (c : Dev nD) (b : Fin 1024) (k : ℕ) (hk : k < 2) : EReal :=
  ∑ q : Fin 128, gateAt m c b ⟨k * 128 + q.val, by have := q.isLt; omega⟩
    * (m ((c : Thread nD τ).loc main_arg10)) (ix2 (0 : Fin 1) (⟨k * 128 + q.val, by have := q.isLt; omega⟩ : Fin 256))

/-- The gate depends on its ten arguments only through their values. -/
theorem gate_congr {κ κ' : EReal} {A A' : Fin 4 → Fin 512 → EReal} {xb xb' thr thr' iqr iqr' esr esr' mkr mkr' : Fin 512 → EReal}
    {tgr tgr' gmr gmr' : Fin 4 → EReal} {kfr kfr' : EReal} (hκ : κ = κ') (hA : A = A') (hx : xb = xb') (hth : thr = thr')
    (hiq : iqr = iqr') (hes : esr = esr') (hmk : mkr = mkr') (htg : tgr = tgr') (hgm : gmr = gmr') (hkf : kfr = kfr') :
    Cert.RuleScore.gate κ A xb thr iqr esr mkr tgr gmr kfr = Cert.RuleScore.gate κ' A' xb' thr' iqr' esr' mkr' tgr' gmr' kfr' := by
  subst hκ hA hx hth hiq hes hmk htg hgm hkf; rfl

/-! ## Small reads of the host-written arrays -/

/-- A scalar laid as a 1 × 1 array reads the scalar. -/
theorem scalar_as_1x1 {α : Type} (x : S_.Idx → α) (h : S_.ShapeCasts S1x1) (u v : Fin 1) :
    shapeCast S1x1 x h (ix2 u v) = x ix0 :=
  shapeCast_apply x h _ _ (by
    have h1 : (S_.rowMajor ix0).val < S_.numel := (S_.rowMajor ix0).isLt
    have h2 : (S1x1.rowMajor (ix2 u v)).val < S1x1.numel := (S1x1.rowMajor (ix2 u v)).isLt
    have e1 : S_.numel = 1 := by decide
    have e2 : S1x1.numel = 1 := by decide
    omega)

/-- The 256 rule scalars laid as a column read, at (r, 0), the scalar of rule r. -/
theorem column_256 {α : Type} (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_one, Shape.rowMajor_val_two]
    show r.val = r.val * 1 + u.val
    omega)

/-! ## What the body leaves, at the point's own blocks -/

/-- After an even point the accumulator holds the cleared block plus the first rule tile's partial sums. -/
theorem acc_at_even (c : Dev nD) (t : Fin cfg0.N) (h0 : t.val % 2 = 0) :
    (outsAt0 m c t.val t.isLt).2 = k0_pay4 (k0_pay3 (iblk m c 0 t) (iblk m c 1 t) (iblk m c 10 t) (iblk m c 2 t) (iblk m c 4 t) (iblk m c 3 t) (iblk m c 5 t)) (iblk m c 6 t) (iblk m c 7 t) (iblk m c 8 t) (iblk m c 9 t) (k0_pay2 (F := Ideal)) := by
  have h1 : ¬t.val % 2 = 1 := by omega
  rw [outsAt0_A m c t h0 h1]
  exact Pieces.acc_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- After an odd point the output block holds accumulator plus bias, the accumulator being what the point before
    left plus the second rule tile's partial sums. -/
theorem out_at_odd (c : Dev nD) (t : Fin cfg0.N) (h1 : t.val % 2 = 1) :
    (outsAt0 m c t.val t.isLt).1
      = k0_pay1 (k0_pay4 (k0_pay3 (iblk m c 0 t) (iblk m c 1 t) (iblk m c 10 t) (iblk m c 2 t) (iblk m c 4 t) (iblk m c 3 t) (iblk m c 5 t)) (iblk m c 6 t) (iblk m c 7 t) (iblk m c 8 t) (iblk m c 9 t) (outsAt0 m c (t.val - 1) (Nat.lt_of_le_of_lt (Nat.sub_le _ _) t.isLt)).2) (iblk m c 11 t) := by
  have h0 : ¬t.val % 2 = 0 := by omega
  rw [outsAt0_B m c t h0 h1]
  exact Pieces.out_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2

/-! ## A point's contribution, in terms of the argument arrays -/

/-- At a point of rule tile `k`, whatever the accumulator held (`xs`), its row `p` is stored back as what it held
    plus the head sum of rule tile `k` for sample `32 · (t / 2) + p`. -/
theorem tile_at (c : Dev nD) (t : Fin cfg0.N) (k : ℕ) (hk : k < 2) (htk : t.val % 2 = k) (xs : Vec Ideal S32x1 .f32)
    (p : Fin 32) (hb : t.val / 2 * 32 + p.val < 1024) :
    (k0_pay4 (k0_pay3 (iblk m c 0 t) (iblk m c 1 t) (iblk m c 10 t) (iblk m c 2 t) (iblk m c 4 t) (iblk m c 3 t) (iblk m c 5 t)) (iblk m c 6 t) (iblk m c 7 t) (iblk m c 8 t) (iblk m c 9 t) xs) (ix2 p (0 : Fin 1))
      = xs (ix2 p (0 : Fin 1)) + tileSum m c ⟨t.val / 2 * 32 + p.val, hb⟩ k hk := by
  subst htk
  refine (BodyValue.tile_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) xs p).trans ?_
  refine congrArg (xs (ix2 p (0 : Fin 1)) + ·) ?_
  unfold tileSum
  refine Finset.sum_congr rfl fun q _ => ?_
  have hq : t.val % 2 * 128 + q.val < 256 := by have := q.isLt; omega
  refine congrArg₂ (· * ·) ?_ ?_
  · unfold gateAt
    refine gate_congr ?_ ?_ ?_ ?_ ?_ ?_ ?_ ?_ ?_ ?_
    · exact (Blocks.blk10 m c t 0 0 (by decide) (by decide)).trans
        ((congrFun (HostPrefix.V_kappa m c) _).trans (scalar_as_1x1 _ _ _ _))
    · funext g d
      exact (Blocks.blk5 m c t d g d.isLt g.isLt).trans
        ((congrFun (HostPrefix.V_weights m c) _).trans (transpose_ix2_apply _ _ _ _))
    · funext d; exact (Blocks.blk0 m c t p d hb d.isLt).trans (congrFun (V_main_arg0 m c) _)
    · funext d; exact (Blocks.blk1 m c t q d hq d.isLt).trans (congrFun (V_main_arg1 m c) _)
    · funext d; exact (Blocks.blk2 m c t q d hq d.isLt).trans (congrFun (V_main_arg2 m c) _)
    · funext d; exact (Blocks.blk3 m c t q d hq d.isLt).trans (congrFun (V_main_arg3 m c) _)
    · funext d; exact (Blocks.blk4 m c t q d hq d.isLt).trans (congrFun (V_main_arg4 m c) _)
    · funext g; exact (Blocks.blk6 m c t q g hq g.isLt).trans (congrFun (V_main_arg7 m c) _)
    · funext g; exact (Blocks.blk7 m c t q g hq g.isLt).trans (congrFun (V_main_arg8 m c) _)
    · exact (Blocks.blk8 m c t q 0 hq (by decide)).trans
        ((congrFun (HostPrefix.V_kfrac m c) _).trans (column_256 _ _ _ _))
  · exact (Blocks.blk9 m c t 0 q (by decide) hq).trans (congrFun (V_main_arg10 m c) _)

/-! ## The output array -/

/-- What the 1024 × 1 output array ends holding: at row `b`, the sum over all 256 rules of gate times head weight,
    plus the bias. -/
def outArr (c : Dev nD) : S1024x1.Idx → EReal := fun i =>
  (∑ r : Fin 256, gateAt m c ⟨(i 0).val, idx2_lt0 i⟩ r * (m ((c : Thread nD τ).loc main_arg10)) (ix2 (0 : Fin 1) r))
    + (m ((c : Thread nD τ).loc main_arg11)) (ix1 (0 : Fin 1))

/-- A sum over the 256 rules is the first tile's sum plus the second tile's. -/
theorem sum_tiles (f : Fin 256 → EReal) :
    ∑ r : Fin 256, f r
      = (∑ q : Fin 128, f ⟨0 * 128 + q.val, by have := q.isLt; omega⟩)
        + ∑ q : Fin 128, f ⟨1 * 128 + q.val, by have := q.isLt; omega⟩ := by
  rw [Cert.RuleScore.sum_two_halves]
  refine congrArg₂ (· + ·) (Finset.sum_congr rfl fun q _ => congrArg f (Fin.ext ?_))
    (Finset.sum_congr rfl fun q _ => congrArg f (Fin.ext ?_))
  · show q.val = 0 * 128 + q.val; omega
  · show 128 + q.val = 1 * 128 + q.val; omega

/-- Row `b` of the output array in the order the kernel accumulates it: zero, plus the first tile's sum, plus the
    second tile's, plus the bias. Only that zero is neutral and that a sum splits over the two tiles is used. -/
theorem outArr_tiles (c : Dev nD) (b : Fin 1024) (u : Fin 1) :
    outArr m c (ix2 b u)
      = ((0 + tileSum m c b 0 (by decide)) + tileSum m c b 1 (by decide)) + (m ((c : Thread nD τ).loc main_arg11)) (ix1 (0 : Fin 1)) := by
  unfold outArr tileSum
  rw [zero_add]
  refine congrArg (· + (m ((c : Thread nD τ).loc main_arg11)) (ix1 (0 : Fin 1))) ?_
  exact sum_tiles (fun r => gateAt m c b r * (m ((c : Thread nD τ).loc main_arg10)) (ix2 (0 : Fin 1) r))

/-- Entry (p, 0) of the output block of point `t` is row `32 · (t / 2) + p` of the output array. -/
theorem emb_out (t : Fin cfg0.N) (p : Fin 32) (u : Fin 1) (hb : t.val / 2 * 32 + p.val < 1024) :
    ((cfg0.win 12).blk t).view.emb (ix2 p u) = (ix2 (⟨t.val / 2 * 32 + p.val, hb⟩ : Fin 1024) (0 : Fin 1)) := by
  have e0 : win0_12.index t (0 : Fin 2) = t.val / 2 := (Blocks.idx_facts t).2.2.2.2.2.2.2.2.2.2.2.2.2.2.2.2.2.2.2.2.2.2.2.2.1
  have e1 : win0_12.index t (1 : Fin 2) = 0 := (Blocks.idx_facts t).2.2.2.2.2.2.2.2.2.2.2.2.2.2.2.2.2.2.2.2.2.2.2.2.2
  funext a; apply Fin.ext
  match a with
  | ⟨0, _⟩ => show win0_12.index t (0 : Fin 2) * 32 + 1 * p.val = t.val / 2 * 32 + p.val; rw [e0]; omega
  | ⟨1, _⟩ => show win0_12.index t (1 : Fin 2) * 1 + 1 * u.val = 0; rw [e1]; have := u.isLt; omega

/-- WHAT AN ODD POINT WRITES BACK is its block of the output array. -/
theorem flushed_eq (c : Dev nD) (t : Fin cfg0.N) (hf : (cfg0.win 12).flush t = true) :
    (dats m 0 c).flushed 12 t = ((cfg0.win 12).blk t).view.read (Elt Ideal) (outArr m c) := by
  have h1 : t.val % 2 = 1 := (flush0_12 t).mp hf
  have hN : t.val < 64 := lt_of_lt_of_eq t.isLt (show cfg0.N = 64 from N_0)
  show (cfg0.win 12).cut (grid0.coords t) ((dats m 0 c).after 12 t) = _
  rw [after0_12, out_at_odd m c t h1]
  funext y
  obtain ⟨p, u, rfl⟩ : ∃ (p : Fin 32) (u : Fin 1), y = ix2 p u := ⟨y 0, y 1, eq_ix2 y⟩
  obtain rfl : u = 0 := Subsingleton.elim _ _
  have hb : t.val / 2 * 32 + p.val < 1024 := by have := p.isLt; omega
  rw [View.read_apply, emb_out t p 0 hb, outArr_tiles]
  refine (BodyValue.pay1_apply _ (iblk m c 11 t) p).trans ?_
  refine congrArg₂ (· + ·) ?_ ?_
  · -- the accumulator: the second tile's sum on top of what the even point before left
    refine (tile_at m c t 1 (by decide) h1 _ p hb).trans ?_
    refine congrArg (· + tileSum m c ⟨t.val / 2 * 32 + p.val, hb⟩ 1 (by decide)) ?_
    have hlt : t.val - 1 < cfg0.N := Nat.lt_of_le_of_lt (Nat.sub_le _ _) t.isLt
    have h0' : (⟨t.val - 1, hlt⟩ : Fin cfg0.N).val % 2 = 0 := by show (t.val - 1) % 2 = 0; omega
    have hb' : (⟨t.val - 1, hlt⟩ : Fin cfg0.N).val / 2 * 32 + p.val < 1024 := by
      show (t.val - 1) / 2 * 32 + p.val < 1024; have := p.isLt; omega
    refine (congrFun (acc_at_even m c ⟨t.val - 1, hlt⟩ h0') (ix2 p (0 : Fin 1))).trans ?_
    refine (tile_at m c ⟨t.val - 1, hlt⟩ 0 (by decide) h0' _ p hb').trans ?_
    rw [BodyValue.pay2_apply]
    refine congrArg (0 + ·) (congrArg (fun b => tileSum m c b 0 (by decide)) (Fin.ext ?_))
    show (t.val - 1) / 2 * 32 + p.val = t.val / 2 * 32 + p.val
    omega
  · -- the bias
    exact (Blocks.blk11 m c t 0 0 (by decide) (by decide)).trans
      ((congrFun (HostPrefix.V_bias m c) _).trans (shapeCast_a_1a_apply _ _ _ _))

/-- A row of the output array is in point `t`'s block iff each coordinate is in the block's range on its axis. -/
theorem mem_blk (t : Fin cfg0.N) (i : S1024x1.Idx) :
    i ∈ ((cfg0.win 12).blk t).view.set
      ↔ ∀ a : Fin 2, win0_12.index t a * S32x1.size a ≤ (i a).val ∧ (i a).val < win0_12.index t a * S32x1.size a + S32x1.size a := by
  show i ∈ ((View.whole main_v17).slice (win0_12.rect t)).set ↔ _
  rw [View.set_slice_whole, Rect.mem_set_unit]
  exact Iff.rfl

/-- Every row is written back by the odd point of its sample tile. -/
theorem cover (i : S1024x1.Idx) :
    ∃ t : Fin cfg0.N, (cfg0.win 12).flush t = true ∧ i ∈ ((cfg0.win 12).blk t).view.set := by
  have hi0 : (i 0).val < 1024 := (i 0).isLt
  have hi1 : (i 1).val < 1 := (i 1).isLt
  have hN : cfg0.N = 64 := N_0
  have ht : 2 * ((i 0).val / 32) + 1 < cfg0.N := by rw [hN]; omega
  have e0 : win0_12.index ⟨2 * ((i 0).val / 32) + 1, ht⟩ (0 : Fin 2) = (2 * ((i 0).val / 32) + 1) / 2 :=
    (Blocks.idx_facts ⟨2 * ((i 0).val / 32) + 1, ht⟩).2.2.2.2.2.2.2.2.2.2.2.2.2.2.2.2.2.2.2.2.2.2.2.2.1
  have e1 : win0_12.index ⟨2 * ((i 0).val / 32) + 1, ht⟩ (1 : Fin 2) = 0 :=
    (Blocks.idx_facts ⟨2 * ((i 0).val / 32) + 1, ht⟩).2.2.2.2.2.2.2.2.2.2.2.2.2.2.2.2.2.2.2.2.2.2.2.2.2
  refine ⟨⟨2 * ((i 0).val / 32) + 1, ht⟩, (flush0_12 _).mpr (by show (2 * ((i 0).val / 32) + 1) % 2 = 1; omega), ?_⟩
  rw [mem_blk]
  intro a
  match a with
  | ⟨0, _⟩ =>
    show win0_12.index ⟨2 * ((i 0).val / 32) + 1, ht⟩ (0 : Fin 2) * 32 ≤ (i 0).val
      ∧ (i 0).val < win0_12.index ⟨2 * ((i 0).val / 32) + 1, ht⟩ (0 : Fin 2) * 32 + 32
    rw [e0]; omega
  | ⟨1, _⟩ =>
    show win0_12.index ⟨2 * ((i 0).val / 32) + 1, ht⟩ (1 : Fin 2) * 1 ≤ (i 1).val
      ∧ (i 1).val < win0_12.index ⟨2 * ((i 0).val / 32) + 1, ht⟩ (1 : Fin 2) * 1 + 1
    rw [e1]; omega

/-- So the output array ends holding `outArr`. -/
theorem final (c : Dev nD) : (dats m 0 c).arrAt 12 cfg0.N = outArr m c :=
  (dats m 0 c).arrAt_eq_of_cover 12 (outArr m c) (fun t hf => flushed_eq m c t hf) cover

/-! ## The result -/

/-- The result array: the output array's 1024 rows read as a vector. -/
def result (c : Dev nD) : S1024.Idx → EReal := shapeCast S1024 (outArr m c) shapeCasts_S1024x1_S1024

/-- After the region the host reshapes the output array, as the region left it, into the result. -/
theorem tail_eq (c : Dev nD) : Pipeline.afterTail₀ cfgs (dats m) 0 (V0 m) [hostOps1] c main_v18 = result m c := by
  have hw : Pipeline.withArrays (cfgs 0).spec c (V0 m c) (fun w => (dats m 0 c).arrAt w (cfgs 0).N) (Proc.devRef .tc main_v17)
      = outArr m c :=
    (Pipeline.withArrays_arr spec0 launch0.win.arr_inj c _ _ 12).trans (final m c)
  unfold Pipeline.afterTail₀
  show StableHlo.after hostOps1 _ (Proc.devRef .tc main_v18) = _
  after_results
  rw [hw]
  rfl

/-- Entry `b` of the result is row `b` of the output array: the sum over all rules of gate times head weight, plus the bias. -/
theorem result_apply (c : Dev nD) (b : Fin 1024) :
    result m c (ix1 b)
      = (∑ r : Fin 256, gateAt m c b r * (m ((c : Thread nD τ).loc main_arg10)) (ix2 (0 : Fin 1) r)) + (m ((c : Thread nD τ).loc main_arg11)) (ix1 (0 : Fin 1)) := by
  unfold result
  refine (shapeCast_apply (outArr m c) shapeCasts_S1024x1_S1024 (ix1 b) (ix2 b (0 : Fin 1)) (by
    rw [Shape.rowMajor_val_one, Shape.rowMajor_val_two]
    show b.val * 1 + 0 = b.val
    omega)).trans ?_
  rfl

/-- THE RUN, READ: every weakly fair execution terminates with the result array at `result` and the arguments unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v18 (Pipeline.mem_restRefs_of main_v18 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).2 main_arg9 (Pipeline.mem_restRefs_of main_arg9 (by decide) (by decide))).trans (W_main_arg9 m (dats m) c),
      ((h c).1 9).trans (((dats m 0 c).arrAt_in 9 rfl _).trans ((A_eq m c 9).trans (V_main_arg10 m c))),
      ((h c).2 main_arg11 (Pipeline.mem_restRefs_of main_arg11 (by decide) (by decide))).trans (W_main_arg11 m (dats m) c)⟩)
    (run_main m ρ)

end Cert.KernelIdeal.KRun

end
-- ==== Proof.Claims.lean ====
/-
  The five claims.

  Frames: the word-level kernel and its idealization run, fault-free, with their argument arrays unchanged (the
  generated frame certificates); the reference's run is its generated run with the result dropped. The idealization
  rewrote nothing, so there is nothing to preserve. Values, at the exact instance: the kernel's result at sample b is
  ((0 + S₀ b) + S₁ b) + β, the two rule tiles' head sums accumulated in grid order and the bias added at the second tile;
  the reference's is (∑ over all 256 rules) + β of the same gates, from arguments that agree. The gates are the same terms
  on both sides: the logistic the reference spells as 1 / (1 + exp(−t)) is the kernel's logistic, its tanh the kernel's
  tanh, its contraction over features the kernel's matrix product into zero, its sums over groups the kernel's lane sums,
  and κ and the softmax weights are one shared chain of host operations on both sides, never opened. The only law used
  is that a sum over 256 rules is the sum of its two halves and that zero is neutral: no finiteness of the inputs is needed.
-/
import proofs.«165279_j87531433492888_2_alg».proof.Defs
import proofs.«165279_j87531433492888_2_alg».proof.Proof.Gen.Kernel.Frame
import proofs.«165279_j87531433492888_2_alg».proof.Proof.Gen.KernelIdeal.Frame
import proofs.«165279_j87531433492888_2_alg».proof.Proof.Gen.Pre_finite_inputs
import proofs.«165279_j87531433492888_2_alg».proof.Proof.RefRun
import proofs.«165279_j87531433492888_2_alg».proof.Proof.RefGate
import proofs.«165279_j87531433492888_2_alg».proof.Proof.KernelRun

noncomputable section

open Idealize.ShloMosaic Idealize.ShloMosaic.TcCoe Idealize.SL.Sem Idealize.ShloMosaic.ValueIdx

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the exact instance both programs end with, at every sample, the sum over the rules of gate times head weight
    plus the bias, of arguments that agree. -/
theorem algebraic : Cert.algebraic_KernelIdeal_ReferenceIdeal := by
  intro m ρ m' ρ' _ hagree
  refine ⟨fun c => Cert.KernelIdeal.KRun.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq]
  obtain ⟨a0, a1, a2, a3, a4, a5, a6, a7, a8, a9, a10, a11⟩ := hagree c
  rw [a0, a1, a2, a3, a4, a5, a6, a7, a8, a9, a10, a11]
  funext i
  obtain ⟨b, rfl⟩ : ∃ b : Fin 1024, i = ix1 b := ⟨i 0, eq_ix1 i⟩
  rw [Cert.ReferenceIdeal.RefValue.result_apply]
  exact (Cert.KernelIdeal.KRun.result_apply m c b).symm

end Cert.Proof.Claims

end
-- ==== Proof.lean ====
/-
  The certificate: a fused rule-gate scoring kernel against its jnp reference.

  For 1024 samples of 512 features and 256 rules, both programs compute, per sample, the sum over the rules of the rule's
  gate on the sample times a head weight, plus a bias (Proof/Spec.lean states the gate). The kernel tiles the samples by
  32 and the rules by 128, accumulates the two rule tiles' sums in a scratch block, and adds the bias at the second tile;
  the reference does it in one piece. The modules: Spec (the function), BodyEvid and BodyGate (the body's arithmetic at an
  index), TileValue (the two joined), Pieces (what one run of the body leaves), Blocks (where a staged block sits in its
  array), HostPrefix (the arrays the host wrote before the region), KernelRun (the kernel's result), RefGate (the
  reference's result), Claims (the five claims).
-/
import proofs.«165279_j87531433492888_2_alg».proof.Defs
import proofs.«165279_j87531433492888_2_alg».proof.Proof.Gen.Kernel
import proofs.«165279_j87531433492888_2_alg».proof.Proof.Gen.KernelIdeal
import proofs.«165279_j87531433492888_2_alg».proof.Proof.Gen.ReferenceIdeal
import proofs.«165279_j87531433492888_2_alg».proof.Proof.Gen.Pre_finite_inputs
import proofs.«165279_j87531433492888_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
